-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel

variable [Facts]

def fn {F : FTy → Type} [FloatOps F] (main_arg0 : FVec F S262144x64 .f32) (main_arg1 : FVec F S262144x64 .f32) (main_arg2 : FVec F S262144x64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S262144x64 .f32 := Host.absf main_arg2
  let main_cst_2 : FVec F S_ .f32 := constant S_ .f32 0x7F800000#32
  let main_v10 : FVec F S262144x64 .f32 := broadcastInDim S262144x64 ![] bcast_S_S262144x64 main_cst_2
  let main_v11 : IVec S262144x64 1 := cmpf .olt main_v9 main_v10
  let main_c_3 : IVec S_ 1 := constantI S_ 1 1#1
  let main_v12 : IVec S_ 1 := (fun x v => Host.reduce IntOp.andi x v reducesTo_S262144x64_S_d0_1 h_S_) main_v11 main_c_3
  let main_v13 : IVec S_ 1 := andi main_v8 main_v12
  main_v13
-- ==== Kernel.lean ====
abbrev S262144x64 : Shape := ⟨2, ![262144, 64]⟩
abbrev S64x64 : Shape := ⟨2, ![64, 64]⟩
abbrev S8192x64 : Shape := ⟨2, ![8192, 64]⟩
abbrev S2048x128x64 : Shape := ⟨3, ![2048, 128, 64]⟩
abbrev S32x128x64 : Shape := ⟨3, ![32, 128, 64]⟩
abbrev S32x128x128 : Shape := ⟨3, ![32, 128, 128]⟩
abbrev S1x64x64 : Shape := ⟨3, ![1, 64, 64]⟩
abbrev S32x64x64 : Shape := ⟨3, ![32, 64, 64]⟩

abbrev nBuf : Space → Nat
  | .hbm => 9
  | .vmem => 15
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S64x64, .f32⟩
  | .hbm, ⟨4, _⟩ => ⟨S2048x128x64, .f32⟩
  | .hbm, ⟨5, _⟩ => ⟨S2048x128x64, .f32⟩
  | .hbm, ⟨6, _⟩ => ⟨S2048x128x64, .f32⟩
  | .hbm, ⟨7, _⟩ => ⟨S2048x128x64, .f32⟩
  | .hbm, ⟨8, _⟩ => ⟨S262144x64, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S32x128x64, .f32⟩
  | .local _ .vmem, ⟨8, _⟩ => ⟨S32x128x64, .f32⟩
  | .local _ .vmem, ⟨9, _⟩ => ⟨S32x128x64, .f32⟩
  | .local _ .vmem, ⟨10, _⟩ => ⟨S32x128x64, .f32⟩
  | .local _ .vmem, ⟨11, _⟩ => ⟨S32x128x64, .f32⟩
  | .local _ .vmem, ⟨12, _⟩ => ⟨S32x128x64, .f32⟩
  | .local _ .vmem, ⟨13, _⟩ => ⟨S32x128x64, .f32⟩
  | .local _ .vmem, ⟨14, _⟩ => ⟨S32x128x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v13 : BitVec 1 := Scalar.cmpi .eq arg0 c31_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S64x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S32x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  shapeCasts_S262144x64_S2048x128x64 : S262144x64.ShapeCasts S2048x128x64
  inb_S32x128x64_S32x128x64_0_0_0 : ∀ a, (![0, 0, 0] : Fin 3 → Nat) a + S32x128x64.size a ≤ S32x128x64.size a
  h_S32x128x64 : 0 < S32x128x64.numel
  shapeCasts_S32x128x64_S32x128x64 : S32x128x64.ShapeCasts S32x128x64
  shapeCasts_S64x64_S1x64x64 : S64x64.ShapeCasts S1x64x64
  shapeCasts_S1x64x64_S1x64x64 : S1x64x64.ShapeCasts S1x64x64
  broadcasts_S1x64x64_S32x64x64 : S1x64x64.Broadcasts S32x64x64
  shapeCasts_S2048x128x64_S262144x64 : S2048x128x64.ShapeCasts S262144x64
  dot_S8192x64_S8192x64_S64x64_0_0_1_1_n_n_wf : DotDims.WF S8192x64 S8192x64 S64x64 [0] [0] [1] [1] [] []
  dot_S32x128x64_S32x128x64_S32x128x128_2_2_1_1_0_0_wf : DotDims.WF S32x128x64 S32x128x64 S32x128x128 [2] [2] [1] [1] [0] [0]
  dot_S32x128x128_S32x128x64_S32x128x64_2_1_1_2_0_0_wf : DotDims.WF S32x128x128 S32x128x64 S32x128x64 [2] [1] [1] [2] [0] [0]
  dot_S32x128x64_S32x64x64_S32x128x64_2_1_1_2_0_0_wf : DotDims.WF S32x128x64 S32x64x64 S32x128x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S262144x64.size a
  hwx0_0 : ∀ i : grid0.Coords, EltTy.bits .f32 = 32 ∨ (Rect.block (s := S262144x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S262144x64.size a
  hwx0_1 : ∀ i : grid0.Coords, EltTy.bits .f32 = 32 ∨ (Rect.block (s := S262144x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x64.size a ≤ S64x64.size a
  hwx1_0 : ∀ i : grid1.Coords, EltTy.bits .f32 = 32 ∨ (Rect.block (s := S64x64) S64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128x64.size a ≤ S2048x128x64.size a
  hwx1_1 : ∀ i : grid1.Coords, EltTy.bits .f32 = 32 ∨ (Rect.block (s := S2048x128x64) S32x128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x128x64.size a ≤ S2048x128x64.size a
  hwx1_2 : ∀ i : grid1.Coords, EltTy.bits .f32 = 32 ∨ (Rect.block (s := S2048x128x64) S32x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x128x64.size a ≤ S2048x128x64.size a
  hwx1_3 : ∀ i : grid1.Coords, EltTy.bits .f32 = 32 ∨ (Rect.block (s := S2048x128x64) S32x128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x128x64.size a ≤ S2048x128x64.size a
  hwx1_4 : ∀ i : grid1.Coords, EltTy.bits .f32 = 32 ∨ (Rect.block (s := S2048x128x64) S32x128x64.size (cc1_transform_4 i) (hinb1_4 i)).WholeWords (EltTy.packing .f32)

variable [Facts₀]

def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf
def dot_S32x128x64_S32x128x64_S32x128x128_2_2_1_1_0_0 : DotDims S32x128x64 S32x128x64 S32x128x128 where
  lhsContracting := [2]
  rhsContracting := [2]
  lhsNonContracting := [1]
  rhsNonContracting := [1]
  lhsBatch := [0]
  rhsBatch := [0]
  wf := dot_S32x128x64_S32x128x64_S32x128x128_2_2_1_1_0_0_wf
def dot_S32x128x128_S32x128x64_S32x128x64_2_1_1_2_0_0 : DotDims S32x128x128 S32x128x64 S32x128x64 where
  lhsContracting := [2]
  rhsContracting := [1]
  lhsNonContracting := [1]
  rhsNonContracting := [2]
  lhsBatch := [0]
  rhsBatch := [0]
  wf := dot_S32x128x128_S32x128x64_S32x128x64_2_1_1_2_0_0_wf
def dot_S32x128x64_S32x64x64_S32x128x64_2_1_1_2_0_0 : DotDims S32x128x64 S32x64x64 S32x128x64 where
  lhsContracting := [2]
  rhsContracting := [1]
  lhsNonContracting := [1]
  rhsNonContracting := [2]
  lhsBatch := [0]
  rhsBatch := [0]
  wf := dot_S32x128x64_S32x64x64_S32x128x64_2_1_1_2_0_0_wf

abbrev win0_0 : Pipeline.Window sig grid0 :=
  Pipeline.Window.ofSpec (Memref.whole main_arg1) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S64x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x128x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S32x128x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S32x128x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S262144x64 : Shape := ⟨2, ![262144, 64]⟩
abbrev S2048x128x64 : Shape := ⟨3, ![2048, 128, 64]⟩
abbrev S2048x128x128 : Shape := ⟨3, ![2048, 128, 128]⟩
abbrev S64x64 : Shape := ⟨2, ![64, 64]⟩

abbrev nBuf : Space → Nat
  | .hbm => 11
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S262144x64, .f32⟩
  | .hbm, ⟨3, _⟩ => ⟨S2048x128x64, .f32⟩
  | .hbm, ⟨4, _⟩ => ⟨S2048x128x64, .f32⟩
  | .hbm, ⟨5, _⟩ => ⟨S2048x128x64, .f32⟩
  | .hbm, ⟨6, _⟩ => ⟨S2048x128x128, .f32⟩
  | .hbm, ⟨7, _⟩ => ⟨S2048x128x64, .f32⟩
  | .hbm, ⟨8, _⟩ => ⟨S262144x64, .f32⟩
  | .hbm, ⟨9, _⟩ => ⟨S64x64, .f32⟩
  | .hbm, ⟨10, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S262144x64_S2048x128x64 : S262144x64.ShapeCasts S2048x128x64
  shapeCasts_S2048x128x64_S262144x64 : S2048x128x64.ShapeCasts S262144x64
  dot_S2048x128x64_S2048x128x64_S2048x128x128_2_2_1_1_0_0_wf : DotDims.WF S2048x128x64 S2048x128x64 S2048x128x128 [2] [2] [1] [1] [0] [0]
  dot_S2048x128x128_S2048x128x64_S2048x128x64_2_1_1_2_0_0_wf : DotDims.WF S2048x128x128 S2048x128x64 S2048x128x64 [2] [1] [1] [2] [0] [0]
  dot_S262144x64_S262144x64_S64x64_0_0_1_1_n_n_wf : DotDims.WF S262144x64 S262144x64 S64x64 [0] [0] [1] [1] [] []
  dot_S262144x64_S64x64_S262144x64_1_0_0_1_n_n_wf : DotDims.WF S262144x64 S64x64 S262144x64 [1] [0] [0] [1] [] []

variable [Facts₀]

def dot_S2048x128x64_S2048x128x64_S2048x128x128_2_2_1_1_0_0 : DotDims S2048x128x64 S2048x128x64 S2048x128x128 where
  lhsContracting := [2]
  rhsContracting := [2]
  lhsNonContracting := [1]
  rhsNonContracting := [1]
  lhsBatch := [0]
  rhsBatch := [0]
  wf := dot_S2048x128x64_S2048x128x64_S2048x128x128_2_2_1_1_0_0_wf
def dot_S2048x128x128_S2048x128x64_S2048x128x64_2_1_1_2_0_0 : DotDims S2048x128x128 S2048x128x64 S2048x128x64 where
  lhsContracting := [2]
  rhsContracting := [1]
  lhsNonContracting := [1]
  rhsNonContracting := [2]
  lhsBatch := [0]
  rhsBatch := [0]
  wf := dot_S2048x128x128_S2048x128x64_S2048x128x64_2_1_1_2_0_0_wf
def dot_S262144x64_S262144x64_S64x64_0_0_1_1_n_n : DotDims S262144x64 S262144x64 S64x64 where
  lhsContracting := [0]
  rhsContracting := [0]
  lhsNonContracting := [1]
  rhsNonContracting := [1]
  lhsBatch := []
  rhsBatch := []
  wf := dot_S262144x64_S262144x64_S64x64_0_0_1_1_n_n_wf
def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf

class Facts : Prop extends Facts₀ where

variable [Facts]
-- ==== Proof.HandK.R0Base.lean ====
/-
  The first kernel (the state matrix accumulated over 32 bands of rows) at a grid point: which of its two
  conditionals hold where, where its output window is idle, and the names its three whole-body runs are stated over.
  The body zeroes a 64×64 scratch at the first point, adds (V band)ᵀ(K band) to it at every point, and copies it to the
  output block at the last point; between points the scratch keeps what the point before left.
-/
import proofs.«172317_j52544629900005_2_alg».proof.Proof.Gen.Kernel.Launch
import proofs.«172317_j52544629900005_2_alg».proof.Proof.Gen.Kernel.Skeleton
import proofs.«172317_j52544629900005_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The two conditionals, decided over the grid -/

/-- "This is the first band": the body's first conditional, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last band": the body's second conditional. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last band nothing is stored into the output block, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S64x64 .f32 := (Memref.whole cc0_stg2_0 : Memref sig .tc .vmem S64x64 .f32).view
abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S64x64 .f32 := Memref.whole cc0_scratch0
abbrev VS0_0 : View sig .tc .vmem S64x64 .f32 := scM0_0.view

end Cert.Kernel.Hand

end
-- ==== Proof.HandK.R0RunA.lean ====
/-
  The first kernel's body at the first band: the accumulator, found at anything, is zeroed, then the band's
  (V band)ᵀ(K band) is added to it; the output block is left as found.
-/
import proofs.«172317_j52544629900005_2_alg».proof.Proof.HandK.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The pieces the body leaves in the output block (none) and in the accumulator, with the body's triple on whole
    memrefs: the two bands at `x0`, `x1`, the output block at `xi2` handed back untouched, the accumulator at anything. -/
noncomputable def kernelRun0_A (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : cond0_0 i) (hc1 : ¬cond0_1 i)
    (x0 x1 : Vec F S8192x64 .f32) :
    Σ' (L2 : List (View.Piece (Elt F) S64x64 .f32)), { LS0 : List (View.Piece (Elt F) S64x64 .f32) //
      ∀ (xi2 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__s_kernel i arg1 harg1 arg2 harg2 arg3 harg3 arg4 harg4) K } := by
  refine ⟨[], ?_, fun xi2 E K => ?run⟩
  case run =>
    simp only [cc0__s_kernel_eq_skeleton]; unfold cc0__s_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.HandK.R0RunB.lean ====
/-
  The first kernel's body at a band that is neither the first nor the last: both conditionals fail, so it loads the
  K and V bands and the accumulator and stores the accumulator plus (V band)ᵀ(K band) back; the output block is left
  as found.
-/
import proofs.«172317_j52544629900005_2_alg».proof.Proof.HandK.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The pieces the body leaves in the output block (none) and in the accumulator, with the body's triple on whole
    memrefs: the two bands at `x0`, `x1`, the output block at `xi2` handed back untouched, the accumulator at what
    the band before left (`xs0`). -/
noncomputable def kernelRun0_B (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : ¬cond0_1 i)
    (x0 x1 : Vec F S8192x64 .f32) (xs0 : Vec F S64x64 .f32) :
    Σ' (L2 : List (View.Piece (Elt F) S64x64 .f32)), { LS0 : List (View.Piece (Elt F) S64x64 .f32) //
      ∀ (xi2 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__s_kernel i arg1 harg1 arg2 harg2 arg3 harg3 arg4 harg4) K } := by
  refine ⟨[], ?_, fun xi2 E K => ?run⟩
  case run =>
    simp only [cc0__s_kernel_eq_skeleton]; unfold cc0__s_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.HandK.R0RunC.lean ====
/-
  The first kernel's body at the last band: the band's (V band)ᵀ(K band) is added to the accumulator, and the
  accumulator is then copied into the output block, whatever that held.
-/
import proofs.«172317_j52544629900005_2_alg».proof.Proof.HandK.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The pieces the body leaves in the output block and in the accumulator, with the body's triple on whole memrefs:
    the two bands at `x0`, `x1`, the output block at anything, the accumulator at what the band before left (`xs0`). -/
noncomputable def kernelRun0_C (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) :
    Σ' (L2 : List (View.Piece (Elt F) S64x64 .f32)), { LS0 : List (View.Piece (Elt F) S64x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__s_kernel i arg1 harg1 arg2 harg2 arg3 harg3 arg4 harg4) K } := by
  refine ⟨?_, ?_, fun E K => ?run⟩
  case run =>
    simp only [cc0__s_kernel_eq_skeleton]; unfold cc0__s_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.HandK.R0Frame.lean ====
/-
  The first kernel over its 32 bands: what the accumulator and the output block hold after each band, the region's
  invariant (the accumulator at what the band before left), the proof data and the body obligation.
  After band 0 the accumulator holds the body's sum over band 0 added to zero; after band b+1 it holds the body's
  sum over band b+1 added to what band b left; the output block is stored only at the last band, with the accumulator.
-/
import proofs.«172317_j52544629900005_2_alg».proof.Proof.HandK.R0RunA
import proofs.«172317_j52544629900005_2_alg».proof.Proof.HandK.R0RunB
import proofs.«172317_j52544629900005_2_alg».proof.Proof.HandK.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves -/

/-- First band: the accumulator's pieces cover it. -/
theorem scover0_A_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : cond0_0 i) (hc1 : ¬cond0_1 i)
    (x0 x1 : Vec F S8192x64 .f32) (y : S64x64.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S64x64.size (by sl_kernel_rfl) y
/-- What the first band leaves in the accumulator. -/
def sout0_A_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : cond0_0 i) (hc1 : ¬cond0_1 i)
    (x0 x1 : Vec F S8192x64 .f32) : Vec F S64x64 .f32 :=
  VS0_0.read (Elt F) (VS0_0.writes (Elt F) VS0_0.junk (kernelRun0_A c i arg1 harg1 arg2 harg2 arg3 harg3 arg4 harg4 hc0 hc1 x0 x1).2.1)

/-- A middle band: the accumulator's pieces cover it. -/
theorem scover0_B_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : ¬cond0_1 i)
    (x0 x1 : Vec F S8192x64 .f32) (xs0 : Vec F S64x64 .f32) (y : S64x64.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S64x64.size (by sl_kernel_rfl) y
/-- What a middle band leaves in the accumulator. -/
def sout0_B_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : ¬cond0_1 i)
    (x0 x1 : Vec F S8192x64 .f32) (xs0 : Vec F S64x64 .f32) : Vec F S64x64 .f32 :=
  VS0_0.read (Elt F) (VS0_0.writes (Elt F) VS0_0.junk (kernelRun0_B c i arg1 harg1 arg2 harg2 arg3 harg3 arg4 harg4 hc0 hc1 x0 x1 xs0).2.1)

/-- The last band: the output block's pieces cover it, -/
theorem cover0_C_2 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) (y : S64x64.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S64x64.size (by sl_kernel_rfl) y
/-- what it leaves there, -/
def out0_C_2 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) : Vec F S64x64 .f32 :=
  VO0_2.read (Elt F) (VO0_2.writes (Elt F) VO0_2.junk (kernelRun0_C c i arg1 harg1 arg2 harg2 arg3 harg3 arg4 harg4 hc0 hc1 x0 x1 xs0).1)
/-- the accumulator's pieces cover it, -/
theorem scover0_C_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) (y : S64x64.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S64x64.size (by sl_kernel_rfl) y
/-- and what it leaves in the accumulator. -/
def sout0_C_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) : Vec F S64x64 .f32 :=
  VS0_0.read (Elt F) (VS0_0.writes (Elt F) VS0_0.junk (kernelRun0_C c i arg1 harg1 arg2 harg2 arg3 harg3 arg4 harg4 hc0 hc1 x0 x1 xs0).2.1)

/-- A block nobody reads: what stands for the output block's contents at the bands that store nothing into it. -/
def idleOut : Vec F S64x64 .f32 := VO0_2.read (Elt F) (VO0_2.writes (Elt F) VO0_2.junk [])

section Region0'
variable (V : (c : Dev nD) → (b : Ref sig .tc) → Buf (Elt F) ((c : Thread nD τ).loc b))

/-! ## Band by band -/

theorem not_last_of_zero (hn : 0 < cfg0.N) : ¬cond0_1 (grid0.coords ⟨0, hn⟩) := fun h => by
  have := (hcond0_1 ⟨0, hn⟩).mp h; simp at this
theorem not_first_of_succ (n : ℕ) (hn : n + 1 < cfg0.N) : ¬cond0_0 (grid0.coords ⟨n + 1, hn⟩) := fun h => by
  have := (hcond0_0 ⟨n + 1, hn⟩).mp h; simp at this

/-- What the output block's staging buffer and the accumulator hold after the body at band `n`. -/
def outsAt0 (c : Dev nD) : (n : ℕ) → n < cfg0.N → Vec F S64x64 .f32 × Vec F S64x64 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (not_last_of_zero hn) (iblk0 V c 0 ⟨0, hn⟩) (iblk0 V c 1 ⟨0, hn⟩))
  | n + 1, hn =>
    if h1 : n + 1 = 31 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_first_of_succ n hn) ((hcond0_1 ⟨n + 1, hn⟩).mpr h1) (iblk0 V c 0 ⟨n + 1, hn⟩) (iblk0 V c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_first_of_succ n hn) ((hcond0_1 ⟨n + 1, hn⟩).mpr h1) (iblk0 V c 0 ⟨n + 1, hn⟩) (iblk0 V c 1 ⟨n + 1, hn⟩) (outsAt0 c n (Nat.lt_of_succ_lt hn)).2)
    else
      (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_first_of_succ n hn) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) :
    outsAt0 V c t.val t.isLt = (idleOut, sout0_A_0 c (grid0.coords t) (ms0_0 t) (hs0_0 t) (ms0_1 t) (hs0_1 t) (ms0_2 t) (hs0_2 t) scM0_0 (Memref.isWhole_whole _) ((hcond0_0 t).mpr h0) (fun h => by have := (hcond0_1 t).mp h; omega) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 31) :
    outsAt0 V c t.val t.isLt = (idleOut, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 31) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The scoped buffers of the core that belong to neither this kernel's windows nor its accumulator: each whole at
    some contents, untouched by this region. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class's invariant with the accumulator singled out. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

/-- Before band `n`: at the first band the class's invariant (the accumulator at anything); afterwards the accumulator
    at what the band before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The first pipeline's proof data on core `c`: the arrays as the region finds them; after band `t` each input's
    buffer at its block, the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region0'

end Cert.Kernel.Hand

end
-- ==== Proof.HandK.R0Body.lean ====
/-
  The first kernel's body obligation: at every band the body, called on the bands' blocks, the output block and the
  accumulator as the invariant holds them, runs and gives the invariant back one band later.
-/
import proofs.«172317_j52544629900005_2_alg».proof.Proof.HandK.R0Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What the body is called with at band `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any band: the closed forms of the two conditionals say which of the three cases the band is in; the
    invariant hands the body the accumulator at what the band before left (at anything at the first band) and takes it
    back at this band's contents; the output block is handed back untouched except at the last band. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : ¬t.val = 31 := by omega
    rw [Dat.leavesExact_idle (dat0 V c) 2 t (idleAt0_2 t (fun h => h1 ((hcond0_1 t).mp h))) (noFlush0_2 t (fun h => h1 ((hcond0_1 t).mp h)))]
    rw [outsAt0_A V c t h0]
    unfold sout0_A_0; (try dsimp only)
    rw [PhiS_castSucc V c t, PhiS_zero V c _ _ h0, PhiA0_eq]
    iintro ⟨⟨⟨HS0, Hrest⟩, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg Hrest]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _)
        iexact Hrest
      iexact Hg
    isplitl [Ho]; · iexact Ho
    isplitl [H0]; · iexact H0
    isplitl [H1]; · iexact H1
    iexists _; iexact H2
  · by_cases h1 : t.val = 31
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS_castSucc V c t, PhiS_pos V c _ _ h0]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS_castSucc V c t, PhiS_pos V c _ _ h0]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every band. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first band. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last band the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Region0

end Cert.Kernel.Hand

end
-- ==== Proof.HandK.R1Frame.lean ====
/-
  The second kernel (per group of 32 trunks: ((Q_t K_tᵀ) V_t) S, trunk by trunk) at a grid point: the body loads the
  state matrix and the group's blocks of the three reshaped arguments and stores one value, a function of the four,
  over the whole output block.  Its triple, the proof data and the body obligation.
-/
import proofs.«172317_j52544629900005_2_alg».proof.Proof.Gen.Kernel.Launch
import proofs.«172317_j52544629900005_2_alg».proof.Proof.Gen.Kernel.Skeleton
import proofs.«172317_j52544629900005_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's accesses and what it leaves -/

abbrev r1_s : Rect S64x64 := Rect.unit (s := S64x64) ![0, 0] S64x64.size inb_S64x64_S64x64_0_0
abbrev r1_b : Rect S32x128x64 := Rect.unit (s := S32x128x64) ![0, 0, 0] S32x128x64.size inb_S32x128x64_S32x128x64_0_0_0

/-- The output block after the body, from the state matrix `x0` and the group's blocks `x1`, `x2`, `x3` of Q, K, V. -/
def out1_4 (x0 : Vec F S64x64 .f32) (x1 x2 x3 : Vec F S32x128x64 .f32) : Vec F S32x128x64 .f32 :=
  View.canon [⟨r1_b, k1_pay1 (View.ld x1 r1_b) (View.ld x2 r1_b) (View.ld x3 r1_b) (View.ld x0 r1_s)⟩]

theorem cover1_4 (p0 : Vec F S32x128x64 .f32) (y : S32x128x64.Idx) :
    ∃ pc ∈ ([⟨r1_b, p0⟩] : List (View.Piece (Elt F) S32x128x64 .f32)), y ∈ pc.1.set :=
  View.cover_of_tiled [⟨r1_b, p0⟩] S32x128x64.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords) (arg1 : Memref sig .tc .vmem S64x64 .f32) (harg1 : arg1.IsWhole) (arg2 : Memref sig .tc .vmem S32x128x64 .f32) (harg2 : arg2.IsWhole) (arg3 : Memref sig .tc .vmem S32x128x64 .f32) (harg3 : arg3.IsWhole) (arg4 : Memref sig .tc .vmem S32x128x64 .f32) (harg4 : arg4.IsWhole) (arg5 : Memref sig .tc .vmem S32x128x64 .f32) (harg5 : arg5.IsWhole)
    (x0 : Vec F S64x64 .f32) (x1 x2 x3 : Vec F S32x128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__main_kernel i arg1 harg1 arg2 harg2 arg3 harg3 arg4 harg4 arg5 harg5) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

section Region1'
variable (V : (c : Dev nD) → (b : Ref sig .tc) → Buf (Elt F) ((c : Thread nD τ).loc b))

/-! ## The proof data -/

/-- The second pipeline's proof data on core `c`: the arrays as the region finds them; after the body at point `t`
    each input's buffer at its block and the output's at `out1_4` of the input blocks; the class's invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1'

end Cert.Kernel.Hand

end
-- ==== Proof.HandK.Run.lean ====
/-
  The whole program: the first kernel's region, three reshapes, the second kernel's region, one reshape.  The contents
  of every unscoped buffer at each boundary are a fold from the launch memory; each region is entered from the buffers
  at the boundary's contents and left with its arrays at what its write-backs leave; every weakly fair execution
  terminates with every unscoped buffer at the last boundary's contents.
-/
import proofs.«172317_j52544629900005_2_alg».proof.Proof.HandK.R0Body
import proofs.«172317_j52544629900005_2_alg».proof.Proof.HandK.R1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev V0r : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the three reshapes. -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((dat0 (V0r m) c).arrAt_in 0 rfl _).trans (A_eq0 (V0r m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 1).trans (((dat0 (V0r m) c).arrAt_in 1 rfl _).trans (A_eq0 (V0r m) c 1))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters, every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Hand.R0Base.lean ====
/-
  The first kernel (the state matrix accumulated over 32 bands of rows) at a grid point: which of its two
  conditionals hold where, where its output window is idle, and the names its three whole-body runs are stated over.
  The body zeroes a 64×64 scratch at the first point, adds (V band)ᵀ(K band) to it at every point, and copies it to the
  output block at the last point; between points the scratch keeps what the point before left.
-/
import proofs.«172317_j52544629900005_2_alg».proof.Proof.Gen.KernelIdeal.Launch
import proofs.«172317_j52544629900005_2_alg».proof.Proof.Gen.KernelIdeal.Skeleton
import proofs.«172317_j52544629900005_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The two conditionals, decided over the grid -/

/-- "This is the first band": the body's first conditional, from the grid coordinate. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last band": the body's second conditional. -/
abbrev cond0_1 (i : grid0.Coords) : Prop := k0_cond2 i = 1#1
theorem hcond0_1 : ∀ t : Fin cfg0.N, cond0_1 (grid0.coords t) ↔ t.val = 31 :=
  (by decide +kernel : ∀ t : Fin grid0.N, cond0_1 (grid0.coords t) ↔ t.val = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last band nothing is stored into the output block, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S64x64 .f32 := (Memref.whole cc0_stg2_0 : Memref sig .tc .vmem S64x64 .f32).view
abbrev ms0_0 (t : Fin cfg0.N) : Memref sig .tc .vmem S8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x64 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S64x64 .f32 := Memref.whole cc0_scratch0
abbrev VS0_0 : View sig .tc .vmem S64x64 .f32 := scM0_0.view

end Cert.KernelIdeal.Hand

end
-- ==== Proof.Hand.R0RunA.lean ====
/-
  The first kernel's body at the first band: the accumulator, found at anything, is zeroed, then the band's
  (V band)ᵀ(K band) is added to it; the output block is left as found.
-/
import proofs.«172317_j52544629900005_2_alg».proof.Proof.Hand.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the body leaves in the output block (none) and in the accumulator, with the body's triple on whole
    memrefs: the two bands at `x0`, `x1`, the output block at `xi2` handed back untouched, the accumulator at anything. -/
noncomputable def kernelRun0_A (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : cond0_0 i) (hc1 : ¬cond0_1 i)
    (x0 x1 : Vec F S8192x64 .f32) :
    Σ' (L2 : List (View.Piece (Elt F) S64x64 .f32)), { LS0 : List (View.Piece (Elt F) S64x64 .f32) //
      ∀ (xi2 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__s_kernel i arg1 harg1 arg2 harg2 arg3 harg3 arg4 harg4) K } := by
  refine ⟨[], ?_, fun xi2 E K => ?run⟩
  case run =>
    simp only [cc0__s_kernel_eq_skeleton]; unfold cc0__s_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.Hand.R0RunB.lean ====
/-
  The first kernel's body at a band that is neither the first nor the last: both conditionals fail, so it loads the
  K and V bands and the accumulator and stores the accumulator plus (V band)ᵀ(K band) back; the output block is left
  as found.
-/
import proofs.«172317_j52544629900005_2_alg».proof.Proof.Hand.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the body leaves in the output block (none) and in the accumulator, with the body's triple on whole
    memrefs: the two bands at `x0`, `x1`, the output block at `xi2` handed back untouched, the accumulator at what
    the band before left (`xs0`). -/
noncomputable def kernelRun0_B (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : ¬cond0_1 i)
    (x0 x1 : Vec F S8192x64 .f32) (xs0 : Vec F S64x64 .f32) :
    Σ' (L2 : List (View.Piece (Elt F) S64x64 .f32)), { LS0 : List (View.Piece (Elt F) S64x64 .f32) //
      ∀ (xi2 : Vec F S64x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__s_kernel i arg1 harg1 arg2 harg2 arg3 harg3 arg4 harg4) K } := by
  refine ⟨[], ?_, fun xi2 E K => ?run⟩
  case run =>
    simp only [cc0__s_kernel_eq_skeleton]; unfold cc0__s_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.Hand.R0RunC.lean ====
/-
  The first kernel's body at the last band: the band's (V band)ᵀ(K band) is added to the accumulator, and the
  accumulator is then copied into the output block, whatever that held.
-/
import proofs.«172317_j52544629900005_2_alg».proof.Proof.Hand.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The pieces the body leaves in the output block and in the accumulator, with the body's triple on whole memrefs:
    the two bands at `x0`, `x1`, the output block at anything, the accumulator at what the band before left (`xs0`). -/
noncomputable def kernelRun0_C (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) :
    Σ' (L2 : List (View.Piece (Elt F) S64x64 .f32)), { LS0 : List (View.Piece (Elt F) S64x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__s_kernel i arg1 harg1 arg2 harg2 arg3 harg3 arg4 harg4) K } := by
  refine ⟨?_, ?_, fun E K => ?run⟩
  case run =>
    simp only [cc0__s_kernel_eq_skeleton]; unfold cc0__s_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.Hand.R0Frame.lean ====
/-
  The first kernel over its 32 bands: what the accumulator and the output block hold after each band, the region's
  invariant (the accumulator at what the band before left), the proof data and the body obligation.
  After band 0 the accumulator holds the body's sum over band 0 added to zero; after band b+1 it holds the body's
  sum over band b+1 added to what band b left; the output block is stored only at the last band, with the accumulator.
-/
import proofs.«172317_j52544629900005_2_alg».proof.Proof.Hand.R0RunA
import proofs.«172317_j52544629900005_2_alg».proof.Proof.Hand.R0RunB
import proofs.«172317_j52544629900005_2_alg».proof.Proof.Hand.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## What each case leaves -/

/-- First band: the accumulator's pieces cover it. -/
theorem scover0_A_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : cond0_0 i) (hc1 : ¬cond0_1 i)
    (x0 x1 : Vec F S8192x64 .f32) (y : S64x64.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S64x64.size (by sl_kernel_rfl) y
/-- What the first band leaves in the accumulator. -/
def sout0_A_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : cond0_0 i) (hc1 : ¬cond0_1 i)
    (x0 x1 : Vec F S8192x64 .f32) : Vec F S64x64 .f32 :=
  VS0_0.read (Elt F) (VS0_0.writes (Elt F) VS0_0.junk (kernelRun0_A c i arg1 harg1 arg2 harg2 arg3 harg3 arg4 harg4 hc0 hc1 x0 x1).2.1)

/-- A middle band: the accumulator's pieces cover it. -/
theorem scover0_B_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : ¬cond0_1 i)
    (x0 x1 : Vec F S8192x64 .f32) (xs0 : Vec F S64x64 .f32) (y : S64x64.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S64x64.size (by sl_kernel_rfl) y
/-- What a middle band leaves in the accumulator. -/
def sout0_B_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : ¬cond0_1 i)
    (x0 x1 : Vec F S8192x64 .f32) (xs0 : Vec F S64x64 .f32) : Vec F S64x64 .f32 :=
  VS0_0.read (Elt F) (VS0_0.writes (Elt F) VS0_0.junk (kernelRun0_B c i arg1 harg1 arg2 harg2 arg3 harg3 arg4 harg4 hc0 hc1 x0 x1 xs0).2.1)

/-- The last band: the output block's pieces cover it, -/
theorem cover0_C_2 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) (y : S64x64.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S64x64.size (by sl_kernel_rfl) y
/-- what it leaves there, -/
def out0_C_2 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) : Vec F S64x64 .f32 :=
  VO0_2.read (Elt F) (VO0_2.writes (Elt F) VO0_2.junk (kernelRun0_C c i arg1 harg1 arg2 harg2 arg3 harg3 arg4 harg4 hc0 hc1 x0 x1 xs0).1)
/-- the accumulator's pieces cover it, -/
theorem scover0_C_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) (y : S64x64.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S64x64.size (by sl_kernel_rfl) y
/-- and what it leaves in the accumulator. -/
def sout0_C_0 (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) : Vec F S64x64 .f32 :=
  VS0_0.read (Elt F) (VS0_0.writes (Elt F) VS0_0.junk (kernelRun0_C c i arg1 harg1 arg2 harg2 arg3 harg3 arg4 harg4 hc0 hc1 x0 x1 xs0).2.1)

/-- A block nobody reads: what stands for the output block's contents at the bands that store nothing into it. -/
def idleOut : Vec F S64x64 .f32 := VO0_2.read (Elt F) (VO0_2.writes (Elt F) VO0_2.junk [])

section Region0'
variable (V : (c : Dev nD) → (b : Ref sig .tc) → Buf (Elt F) ((c : Thread nD τ).loc b))

/-! ## Band by band -/

theorem not_last_of_zero (hn : 0 < cfg0.N) : ¬cond0_1 (grid0.coords ⟨0, hn⟩) := fun h => by
  have := (hcond0_1 ⟨0, hn⟩).mp h; simp at this
theorem not_first_of_succ (n : ℕ) (hn : n + 1 < cfg0.N) : ¬cond0_0 (grid0.coords ⟨n + 1, hn⟩) := fun h => by
  have := (hcond0_0 ⟨n + 1, hn⟩).mp h; simp at this

/-- What the output block's staging buffer and the accumulator hold after the body at band `n`. -/
def outsAt0 (c : Dev nD) : (n : ℕ) → n < cfg0.N → Vec F S64x64 .f32 × Vec F S64x64 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (not_last_of_zero hn) (iblk0 V c 0 ⟨0, hn⟩) (iblk0 V c 1 ⟨0, hn⟩))
  | n + 1, hn =>
    if h1 : n + 1 = 31 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_first_of_succ n hn) ((hcond0_1 ⟨n + 1, hn⟩).mpr h1) (iblk0 V c 0 ⟨n + 1, hn⟩) (iblk0 V c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_first_of_succ n hn) ((hcond0_1 ⟨n + 1, hn⟩).mpr h1) (iblk0 V c 0 ⟨n + 1, hn⟩) (iblk0 V c 1 ⟨n + 1, hn⟩) (outsAt0 c n (Nat.lt_of_succ_lt hn)).2)
    else
      (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (not_first_of_succ n hn) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) :
    outsAt0 V c t.val t.isLt = (idleOut, sout0_A_0 c (grid0.coords t) (ms0_0 t) (hs0_0 t) (ms0_1 t) (hs0_1 t) (ms0_2 t) (hs0_2 t) scM0_0 (Memref.isWhole_whole _) ((hcond0_0 t).mpr h0) (fun h => by have := (hcond0_1 t).mp h; omega) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 31) :
    outsAt0 V c t.val t.isLt = (idleOut, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 31) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- The scoped buffers of the core that belong to neither this kernel's windows nor its accumulator: each whole at
    some contents, untouched by this region. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class's invariant with the accumulator singled out. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA rest0; rw [scopedRest0_eq]; simp only [scM0_0, owns_whole]; try rfl

/-- Before band `n`: at the first band the class's invariant (the accumulator at anything); afterwards the accumulator
    at what the band before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The proof data -/

/-- The first pipeline's proof data on core `c`: the arrays as the region finds them; after band `t` each input's
    buffer at its block, the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region0'

end Cert.KernelIdeal.Hand

end
-- ==== Proof.Hand.R0Body.lean ====
/-
  The first kernel's body obligation: at every band the body, called on the bands' blocks, the output block and the
  accumulator as the invariant holds them, runs and gives the invariant back one band later.
-/
import proofs.«172317_j52544629900005_2_alg».proof.Proof.Hand.R0Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- What the body is called with at band `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any band: the closed forms of the two conditionals say which of the three cases the band is in; the
    invariant hands the body the accumulator at what the band before left (at anything at the first band) and takes it
    back at this band's contents; the output block is handed back untouched except at the last band. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : ¬t.val = 31 := by omega
    rw [Dat.leavesExact_idle (dat0 V c) 2 t (idleAt0_2 t (fun h => h1 ((hcond0_1 t).mp h))) (noFlush0_2 t (fun h => h1 ((hcond0_1 t).mp h)))]
    rw [outsAt0_A V c t h0]
    unfold sout0_A_0; (try dsimp only)
    rw [PhiS_castSucc V c t, PhiS_zero V c _ _ h0, PhiA0_eq]
    iintro ⟨⟨⟨HS0, Hrest⟩, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk0 V c 0 t) (iblk0 V c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg Hrest]
    · isplitl [HS0 Hrest]
      · isplitl [HS0]
        · unfold owns; iexists _; isplitr
          swap; · iexact HS0
          ipureintro; exact View.read_writes_of_cover _ _ _ _ _ (scover0_A_0 c _ _ _ _ _ _ _ _ _ _ _ _ _)
        iexact Hrest
      iexact Hg
    isplitl [Ho]; · iexact Ho
    isplitl [H0]; · iexact H0
    isplitl [H1]; · iexact H1
    iexists _; iexact H2
  · by_cases h1 : t.val = 31
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_2 sout0_C_0; (try dsimp only)
      rw [PhiS_castSucc V c t, PhiS_pos V c _ _ h0]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_C_0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0; (try dsimp only)
      rw [PhiS_castSucc V c t, PhiS_pos V c _ _ h0]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg Hrest]
      · isplitl [HS0 Hrest]
        · isplitl [HS0]
          · unfold owns; iexists _; isplitr
            swap; · iexact HS0
            ipureintro; exact View.read_writes_of_cover _ _ _ _ _ (scover0_B_0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every band. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first band. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last band the invariant gives the class's back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hrest⟩, Hg⟩
  isplitl [HS0 Hrest]
  · isplitl [HS0]
    · iexists _; iexact HS0
    iexact Hrest
  iexact Hg

end Region0

end Cert.KernelIdeal.Hand

end
-- ==== Proof.Hand.R1Frame.lean ====
/-
  The second kernel (per group of 32 trunks: ((Q_t K_tᵀ) V_t) S, trunk by trunk) at a grid point: the body loads the
  state matrix and the group's blocks of the three reshaped arguments and stores one value, a function of the four,
  over the whole output block.  Its triple, the proof data and the body obligation.
-/
import proofs.«172317_j52544629900005_2_alg».proof.Proof.Gen.KernelIdeal.Launch
import proofs.«172317_j52544629900005_2_alg».proof.Proof.Gen.KernelIdeal.Skeleton
import proofs.«172317_j52544629900005_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's accesses and what it leaves -/

abbrev r1_s : Rect S64x64 := Rect.unit (s := S64x64) ![0, 0] S64x64.size inb_S64x64_S64x64_0_0
abbrev r1_b : Rect S32x128x64 := Rect.unit (s := S32x128x64) ![0, 0, 0] S32x128x64.size inb_S32x128x64_S32x128x64_0_0_0

/-- The output block after the body, from the state matrix `x0` and the group's blocks `x1`, `x2`, `x3` of Q, K, V. -/
def out1_4 (x0 : Vec F S64x64 .f32) (x1 x2 x3 : Vec F S32x128x64 .f32) : Vec F S32x128x64 .f32 :=
  View.canon [⟨r1_b, k1_pay1 (View.ld x1 r1_b) (View.ld x2 r1_b) (View.ld x3 r1_b) (View.ld x0 r1_s)⟩]

theorem cover1_4 (p0 : Vec F S32x128x64 .f32) (y : S32x128x64.Idx) :
    ∃ pc ∈ ([⟨r1_b, p0⟩] : List (View.Piece (Elt F) S32x128x64 .f32)), y ∈ pc.1.set :=
  View.cover_of_tiled [⟨r1_b, p0⟩] S32x128x64.size (by rfl) y

set_option maxHeartbeats 1000000 in
/-- The body on whole staging memrefs, the inputs' at contents `x0 … x3` and the output's at anything, runs to the
    continuation holding the inputs' as they were and the output's at `out1_4` of them. -/
theorem sound_kernel1 (c : Dev nD) (E : Set ℕ) (i : grid1.Coords) (arg1 : Memref sig .tc .vmem S64x64 .f32) (harg1 : arg1.IsWhole) (arg2 : Memref sig .tc .vmem S32x128x64 .f32) (harg2 : arg2.IsWhole) (arg3 : Memref sig .tc .vmem S32x128x64 .f32) (harg3 : arg3.IsWhole) (arg4 : Memref sig .tc .vmem S32x128x64 .f32) (harg4 : arg4.IsWhole) (arg5 : Memref sig .tc .vmem S32x128x64 .f32) (harg5 : arg5.IsWhole)
    (x0 : Vec F S64x64 .f32) (x1 x2 x3 : Vec F S32x128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__main_kernel i arg1 harg1 arg2 harg2 arg3 harg3 arg4 harg4 arg5 harg5) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

section Region1'
variable (V : (c : Dev nD) → (b : Ref sig .tc) → Buf (Elt F) ((c : Thread nD τ).loc b))

/-! ## The proof data -/

/-- The second pipeline's proof data on core `c`: the arrays as the region finds them; after the body at point `t`
    each input's buffer at its block and the output's at `out1_4` of the input blocks; the class's invariant;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Region1'

end Cert.KernelIdeal.Hand

end
-- ==== Proof.Hand.Run.lean ====
/-
  The whole program: the first kernel's region, three reshapes, the second kernel's region, one reshape.  The contents
  of every unscoped buffer at each boundary are a fold from the launch memory; each region is entered from the buffers
  at the boundary's contents and left with its arrays at what its write-backs leave; every weakly fair execution
  terminates with every unscoped buffer at the last boundary's contents.
-/
import proofs.«172317_j52544629900005_2_alg».proof.Proof.Hand.R0Body
import proofs.«172317_j52544629900005_2_alg».proof.Proof.Hand.R1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev V0r : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the three reshapes. -/
abbrev W2 : Dev nD → Valuation τ sig (Elt F) := fun c => StableHlo.after hostOps1 (W1 m c)
abbrev V2r : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (V2r m) c).arrAt w cfg1.N
theorem W3_arr (c : Dev nD) (w : Fin cfg1.W) :
    W3 m c (Proc.devRef .tc (Pipeline.arrRef spec1 w)) = (dat1 (V2r m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3r : (c : Dev nD) → (b : Ref sig .tc) → Buf (Elt F) ((c : Thread nD τ).loc b) := fun c b => W3 m c b
theorem hF1 (c : Dev nD) (w : Fin cfg1.W) : (dat1 (V2r m) c).arrAt w cfg1.N = V3r m c (Pipeline.arrRef spec1 w) :=
  (W3_arr m c w).symm
theorem hrest1 (c : Dev nD) : ∀ b, b ∉ Finset.univ.image (Pipeline.arrRef spec1) → V3r m c b = V2r m c b :=
  fun b hb => W3_of_ne m c b fun w e => hb (Finset.mem_image.mpr ⟨w, Finset.mem_univ _, e⟩)
/-- After the last reshape. -/
abbrev W4 : Dev nD → Valuation τ sig (Elt F) := fun c => StableHlo.after hostOps2 (W3 m c)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg0) := W1_of_ne m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg1) := (W1_arr m c 0).trans (((dat0 (V0r m) c).arrAt_in 0 rfl _).trans (A_eq0 (V0r m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m c (Proc.devRef .tc main_arg2) := (W1_arr m c 1).trans (((dat0 (V0r m) c).arrAt_in 1 rfl _).trans (A_eq0 (V0r m) c 1))
    _ = m ((c : Thread nD τ).loc main_arg2) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0r m) c
  | ⟨1, _⟩ => fun c => dat1 (V2r m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2r m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2r m c) (V3r m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- From any memory with zero counters, every weakly fair execution of @main terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.Hand.Value.lean ====
/-
  What the two regions leave, read as values.
  First region: each band's whole-body run leaves in the accumulator the body's stored value on the band's two blocks
  and on what the accumulator held; so after band n the accumulator holds the n-fold iterate `accG`, and the one
  write-back, after the last band, writes that into the state array, which it covers.
  Second region: point t writes back, over block t of the output array, the body's stored value on the point's blocks;
  the 64 blocks tile the array, so the array ends holding one function `G3` of the region-entry contents.
-/
import proofs.«172317_j52544629900005_2_alg».proof.Proof.Hand.R0Body
import proofs.«172317_j52544629900005_2_alg».proof.Proof.Hand.R1Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first region's cases as values -/

theorem sout_B (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : ¬cond0_1 i)
    (x0 x1 : Vec F S8192x64 .f32) (xs0 : Vec F S64x64 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  rw [View.canon_unit_zero hz2]
  simp only [View.readAt_eq_ld, harg1.read_unread, harg2.read_unread, harg4.read_unread, View.ld_unit_zero (S := S8192x64) hz2, View.ld_unit_zero (S := S64x64) hz2]

theorem sout_A (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : cond0_0 i) (hc1 : ¬cond0_1 i)
    (x0 x1 : Vec F S8192x64 .f32) :
    sout0_A_0 c i arg1 harg1 arg2 harg2 arg3 harg3 arg4 harg4 hc0 hc1 x0 x1 = k0_pay2 x0 x1 k0_pay1 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S64x64) hz2, View.readCov_unit_zero (S := S64x64) _ hz2]
  simp only [View.readAt_eq_ld, harg1.read_unread, harg2.read_unread, View.ld_unit_zero (S := S8192x64) hz2, View.ld_unit_zero (S := S64x64) hz2]

theorem sout_C (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz2]
  simp only [View.readAt_eq_ld, harg1.read_unread, harg2.read_unread, harg4.read_unread, View.ld_unit_zero (S := S8192x64) hz2, View.ld_unit_zero (S := S64x64) hz2]

theorem out_C (c : Dev nD) (i : grid0.Coords) (arg1 : Memref sig .tc .vmem S8192x64 .f32) (harg1 : arg1.IsWhole) (arg2 : Memref sig .tc .vmem S8192x64 .f32) (harg2 : arg2.IsWhole) (arg3 : Memref sig .tc .vmem S64x64 .f32) (harg3 : arg3.IsWhole) (arg4 : Memref sig .tc .vmem S64x64 .f32) (harg4 : arg4.IsWhole) (hc0 : ¬cond0_0 i) (hc1 : cond0_1 i)
    (x0 x1 : Vec F S8192x64 .f32) (xs0 : Vec F S64x64 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz2, View.readCov_unit_zero (S := S64x64) _ hz2]
  simp only [View.readAt_eq_ld, harg1.read_unread, harg2.read_unread, harg4.read_unread, View.ld_unit_zero (S := S8192x64) hz2, View.ld_unit_zero (S := S64x64) hz2]

section Vals
variable (V : (c : Dev nD) → (b : Ref sig .tc) → Buf (Elt F) ((c : Thread nD τ).loc b))

/-! ## The accumulator band by band -/

/-- The accumulator after band `n`: the body's stored value on band `n`'s blocks and on what band `n - 1` left
    (the zero block before the first band). -/
def accG (c : Dev nD) : (n : ℕ) → n < cfg0.N → Vec F S64x64 .f32
  | 0, h => k0_pay2 (iblk0 V c 0 ⟨0, h⟩) (iblk0 V c 1 ⟨0, h⟩) k0_pay1
  | n + 1, h => k0_pay2 (iblk0 V c 0 ⟨n + 1, h⟩) (iblk0 V c 1 ⟨n + 1, h⟩) (accG c n (Nat.lt_of_succ_lt h))

theorem outsAt_snd (c : Dev nD) : ∀ (n : ℕ) (h : n < cfg0.N), (outsAt0 V c n h).2 = accG V c n h
  | 0, h => by
    rw [outsAt0_A V c ⟨0, h⟩ rfl]
    dsimp only
    rw [sout_A]
    rfl
  | n + 1, h => by
    by_cases h1 : n + 1 = 31
    · rw [outsAt0_C V c ⟨n + 1, h⟩ (Nat.succ_ne_zero n) h1]
      dsimp only
      rw [sout_C]
      show k0_pay2 (F := F) _ _ (outsAt0 V c n _).2 = k0_pay2 (F := F) _ _ (accG V c n _)
      rw [outsAt_snd c n]
    · rw [outsAt0_B V c ⟨n + 1, h⟩ (Nat.succ_ne_zero n) h1]
      dsimp only
      rw [sout_B]
      show k0_pay2 (F := F) _ _ (outsAt0 V c n _).2 = k0_pay2 (F := F) _ _ (accG V c n _)
      rw [outsAt_snd c n]

theorem h31 : 31 < cfg0.N := by rw [show cfg0.N = 32 from N_0]; decide
abbrev t31 : Fin cfg0.N := ⟨31, h31⟩

/-- At the last band the output block is stored with the accumulator. -/
theorem outsAt_fst_last (c : Dev nD) : (outsAt0 V c 31 h31).1 = accG V c 31 h31 := by
  rw [outsAt0_C V c t31 (by decide) rfl]
  dsimp only
  rw [out_C]
  show k0_pay2 (F := F) _ _ (outsAt0 V c 30 _).2 = k0_pay2 (F := F) _ _ (accG V c 30 _)
  rw [outsAt_snd V c 30]

/-- The one write-back, after the last band, writes the accumulator: the output window's one block is the state array. -/
theorem flushed0_2 (c : Dev nD) (t : Fin cfg0.N) (hf : (cfg0.win 2).flush t = true) :
    (dat0 V c).flushed 2 t = ((cfg0.win 2).blk t).view.read (Elt F) (accG V c 31 h31) := by
  have hN : cfg0.N = 32 := N_0
  have h3 : t.val = 31 := by have := (flush0_2 t).mp hf; have := t.isLt; omega
  obtain rfl : t = t31 := Fin.ext h3
  show (cfg0.win 2).cut (grid0.coords t31) ((dat0 V c).after 2 t31) = _
  rw [after0_2, outsAt_fst_last]
  have hz' : (fun a => win0_2.index t31 a * main_v0.ty.shape.size a) = fun _ => 0 := funext fun a => by fin_cases a <;> decide +kernel
  exact (Memref.read_access_unit_zero (Elt F) main_v0 hz' (fun a => by rw [congrFun hz' a]; simp) (accG V c 31 h31)).symm

/-- So the state array ends holding the accumulator after the last band. -/
theorem final0_2 (c : Dev nD) : (dat0 V c).arrAt 2 cfg0.N = accG V c 31 h31 :=
  (dat0 V c).arrAt_eq_of_cover 2 (accG V c 31 h31) (flushed0_2 V c) fun i =>
    ⟨t31, (flush0_2 t31).mpr rfl, by
      show i ∈ ((View.whole main_v0).slice (win0_2.rect t31)).set
      rw [View.set_slice_whole, Rect.mem_set_unit]
      intro a
      have h0 : (i 0 : Nat) < 64 := (i 0).isLt
      have h1 : (i 1 : Nat) < 64 := (i 1).isLt
      match a with
      | ⟨0, _⟩ => show win0_2.index t31 0 * win0_2.size 0 ≤ (i 0 : Nat) ∧ (i 0 : Nat) < win0_2.index t31 0 * win0_2.size 0 + win0_2.xsize (grid0.coords t31) 0
                  rw [show win0_2.index t31 0 * win0_2.size 0 = 0 from by decide +kernel, show win0_2.xsize (grid0.coords t31) 0 = 64 from by decide +kernel]; omega
      | ⟨1, _⟩ => show win0_2.index t31 1 * win0_2.size 1 ≤ (i 1 : Nat) ∧ (i 1 : Nat) < win0_2.index t31 1 * win0_2.size 1 + win0_2.xsize (grid0.coords t31) 1
                  rw [show win0_2.index t31 1 * win0_2.size 1 = 0 from by decide +kernel, show win0_2.xsize (grid0.coords t31) 1 = 64 from by decide +kernel]; omega⟩

/-! ## The second region's output array -/

/-- What point `t` leaves in the output block. -/
def blkVal (c : Dev nD) (t : Fin cfg1.N) : Vec F S32x128x64 .f32 :=
  out1_4 (iblk1 V c 0 t) (iblk1 V c 1 t) (iblk1 V c 2 t) (iblk1 V c 3 t)

/-- The point whose block holds trunk `i 0`. -/
def ptOf (i : S2048x128x64.Idx) : Fin cfg1.N :=
  ⟨(i 0).val / 32, lt_of_lt_of_eq (by have := (i 0).isLt; change (i 0).val < 2048 at this; omega : (i 0).val / 32 < 64) N_1.symm⟩
/-- Its place in that block. -/
def inBlk (i : S2048x128x64.Idx) : S32x128x64.Idx :=
  ix3 (⟨(i 0).val % 32, Nat.mod_lt _ (by decide)⟩ : Fin 32) (⟨(i 1).val, (i 1).isLt⟩ : Fin 128) (⟨(i 2).val, (i 2).isLt⟩ : Fin 64)

/-- The output array after the region: each entry what its point left at its place. -/
def G3 (c : Dev nD) : Vec F S2048x128x64 .f32 := fun i => blkVal V c (ptOf i) (inBlk i)

/-- The output window's block index is the point's number. -/
theorem idx4 : ∀ t : Fin cfg1.N, win1_4.index t (0 : Fin 3) = t.val ∧ win1_4.index t (1 : Fin 3) = 0 ∧ win1_4.index t (2 : Fin 3) = 0 :=
  (by decide +kernel : ∀ t : Fin grid1.N, win1_4.index t (0 : Fin 3) = t.val ∧ win1_4.index t (1 : Fin 3) = 0 ∧ win1_4.index t (2 : Fin 3) = 0)

theorem flushed1_4 (c : Dev nD) (t : Fin cfg1.N) :
    (dat1 V c).flushed 4 t = ((cfg1.win 4).blk t).view.read (Elt F) (G3 V c) := by
  show (cfg1.win 4).cut (grid1.coords t) ((dat1 V c).after 4 t) = _
  rw [after1_4]
  obtain ⟨e0, e1, e2⟩ := idx4 t
  funext j
  show blkVal V c t j = G3 V c (((cfg1.win 4).blk t).view.emb j)
  have hj0 : (j 0).val < 32 := (j 0).isLt
  have hj1 : (j 1).val < 128 := (j 1).isLt
  have hj2 : (j 2).val < 64 := (j 2).isLt
  have v0 : ((((cfg1.win 4).blk t).view.emb j) 0).val = win1_4.index t (0 : Fin 3) * 32 + 1 * (j 0).val := rfl
  have v1 : ((((cfg1.win 4).blk t).view.emb j) 1).val = win1_4.index t (1 : Fin 3) * 128 + 1 * (j 1).val := rfl
  have v2 : ((((cfg1.win 4).blk t).view.emb j) 2).val = win1_4.index t (2 : Fin 3) * 64 + 1 * (j 2).val := rfl
  have ht : ptOf (((cfg1.win 4).blk t).view.emb j) = t := Fin.ext (by
    show ((((cfg1.win 4).blk t).view.emb j) 0).val / 32 = t.val
    rw [v0, e0]; omega)
  have hj : inBlk (((cfg1.win 4).blk t).view.emb j) = j := funext fun a => Fin.ext (by
    match a with
    | ⟨0, _⟩ => show ((((cfg1.win 4).blk t).view.emb j) 0).val % 32 = (j 0).val; rw [v0, e0]; omega
    | ⟨1, _⟩ => show ((((cfg1.win 4).blk t).view.emb j) 1).val = (j 1).val; rw [v1, e1]; omega
    | ⟨2, _⟩ => show ((((cfg1.win 4).blk t).view.emb j) 2).val = (j 2).val; rw [v2, e2]; omega)
  unfold G3
  rw [ht, hj]

theorem mem_blk4 (t : Fin cfg1.N) (i : S2048x128x64.Idx) :
    i ∈ ((cfg1.win 4).blk t).view.set ↔ ∀ a : Fin 3, win1_4.index t a * S32x128x64.size a ≤ (i a).val ∧ (i a).val < win1_4.index t a * S32x128x64.size a + S32x128x64.size a := by
  show i ∈ ((View.whole main_v4).slice (win1_4.rect t)).set ↔ _
  rw [View.set_slice_whole, Rect.mem_set_unit]
  exact Iff.rfl

/-- The 64 blocks of 32 trunks tile the output array, so it ends holding `G3`. -/
theorem final1_4 (c : Dev nD) : (dat1 V c).arrAt 4 cfg1.N = G3 V c :=
  (dat1 V c).arrAt_eq_of_cover 4 (G3 V c) (fun t _ => flushed1_4 V c t) fun i =>
    ⟨ptOf i, flush1_4 (ptOf i), by
      rw [mem_blk4]
      obtain ⟨e0, e1, e2⟩ := idx4 (ptOf i)
      have hp : (ptOf i).val = (i 0).val / 32 := rfl
      have h0 : (i 0).val < 2048 := (i 0).isLt
      have h1 : (i 1).val < 128 := (i 1).isLt
      have h2 : (i 2).val < 64 := (i 2).isLt
      intro a
      match a with
      | ⟨0, _⟩ => show win1_4.index (ptOf i) (0 : Fin 3) * 32 ≤ (i 0).val ∧ (i 0).val < win1_4.index (ptOf i) (0 : Fin 3) * 32 + 32; rw [e0, hp]; omega
      | ⟨1, _⟩ => show win1_4.index (ptOf i) (1 : Fin 3) * 128 ≤ (i 1).val ∧ (i 1).val < win1_4.index (ptOf i) (1 : Fin 3) * 128 + 128; rw [e1]; omega
      | ⟨2, _⟩ => show win1_4.index (ptOf i) (2 : Fin 3) * 64 ≤ (i 2).val ∧ (i 2).val < win1_4.index (ptOf i) (2 : Fin 3) * 64 + 64; rw [e2]; omega⟩

/-- What a point leaves, with the body's loads read whole: the stored value on the point's four blocks. -/
theorem blkVal_eq (c : Dev nD) (t : Fin cfg1.N) :
    blkVal V c t = k1_pay1 (iblk1 V c 1 t) (iblk1 V c 2 t) (iblk1 V c 3 t) (iblk1 V c 0 t) := by
  unfold blkVal out1_4
  rw [View.canon_unit_zero hz3]
  simp only [View.ld_unit_zero (S := S32x128x64) hz3, View.ld_unit_zero (S := S64x64) hz2]

end Vals

end Cert.KernelIdeal.Hand

end
-- ==== Proof.KSpec.lean ====
/-
  The kernel's result as ONE function of the three argument arrays, written over the two kernel bodies' arithmetic.

  The first kernel visits the 262144 rows of K and V in 32 consecutive bands of 8192 rows; at band `b` it adds to a
  64×64 accumulator (zeroed at the first band) the product (V band)ᵀ · (K band).  `accS K V b` is the accumulator after
  band `b`; after the last band it is the state matrix S = Vᵀ K.
  The second kernel visits the 2048 trunks of 128 rows in 64 groups of 32 trunks; on a group it computes, trunk by trunk,
  ((Q_t K_tᵀ) V_t) S.  `out3 Q K V` is the resulting [2048,128,64] array, entry by entry the second body's arithmetic on
  the group the entry's trunk lies in.
-/
import proofs.«172317_j52544629900005_2_alg».proof.Proof.Gen.KernelIdeal.Skeleton
import Idealize.ShloMosaic.Lib.ValueIdx
import Idealize.ShloMosaic.PureOps.Ideal

noncomputable section

namespace Cert.KSpec

open Idealize.ShloMosaic Idealize.ShloMosaic.ValueIdx Cert.KernelIdeal Cert.KernelIdeal.Gen

/-- Band `b` (rows `b·8192 … b·8192+8191`) of a [262144,64] array, as an [8192,64] block. -/
def rowBand (X : Vec Ideal S262144x64 .f32) (b : ℕ) (hb : b < 32) : Vec Ideal S8192x64 .f32 :=
  fun y => X (ix2 (⟨b * 8192 + (y 0).val, by have := (y 0).isLt; change (y 0).val < 8192 at this; omega⟩ : Fin 262144)
    (⟨(y 1).val, (y 1).isLt⟩ : Fin 64))

/-- The 64×64 accumulator after band `b`: the first body's stored value on the band's blocks of K and V and on what
    the band before left (the zero block before the first band). -/
def accS (K V : Vec Ideal S262144x64 .f32) : (b : ℕ) → b < 32 → Vec Ideal S64x64 .f32
  | 0, h => k0_pay2 (F := Ideal) (rowBand K 0 h) (rowBand V 0 h) (k0_pay1 (F := Ideal))
  | b + 1, h => k0_pay2 (F := Ideal) (rowBand K (b + 1) h) (rowBand V (b + 1) h) (accS K V b (Nat.lt_of_succ_lt h))

/-- The state matrix the first kernel writes back: the accumulator after the last band. -/
def stateS (K V : Vec Ideal S262144x64 .f32) : Vec Ideal S64x64 .f32 := accS K V 31 (by decide)

/-- Group `g` (trunks `g·32 … g·32+31`) of a [2048,128,64] array, as a [32,128,64] block. -/
def trunkGroup (X : Vec Ideal S2048x128x64 .f32) (g : ℕ) (hg : g < 64) : Vec Ideal S32x128x64 .f32 :=
  fun y => X (ix3 (⟨g * 32 + (y 0).val, by have := (y 0).isLt; change (y 0).val < 32 at this; omega⟩ : Fin 2048)
    (⟨(y 1).val, (y 1).isLt⟩ : Fin 128) (⟨(y 2).val, (y 2).isLt⟩ : Fin 64))

/-- The [2048,128,64] array the second kernel writes: at trunk `i 0`, the second body's stored value on the trunk's
    group of the three reshaped arguments and on the state matrix, read at the trunk's place in the group. -/
def out3 (Q K V : Vec Ideal S262144x64 .f32) : Vec Ideal S2048x128x64 .f32 := fun i =>
  k1_pay1 (F := Ideal)
    (trunkGroup (shapeCast S2048x128x64 Q Facts₀.shapeCasts_S262144x64_S2048x128x64) ((i 0).val / 32) (by have := (i 0).isLt; change (i 0).val < 2048 at this; omega))
    (trunkGroup (shapeCast S2048x128x64 K Facts₀.shapeCasts_S262144x64_S2048x128x64) ((i 0).val / 32) (by have := (i 0).isLt; change (i 0).val < 2048 at this; omega))
    (trunkGroup (shapeCast S2048x128x64 V Facts₀.shapeCasts_S262144x64_S2048x128x64) ((i 0).val / 32) (by have := (i 0).isLt; change (i 0).val < 2048 at this; omega))
    (stateS K V)
    (ix3 (⟨(i 0).val % 32, Nat.mod_lt _ (by decide)⟩ : Fin 32) (⟨(i 1).val, (i 1).isLt⟩ : Fin 128) (⟨(i 2).val, (i 2).isLt⟩ : Fin 64))

/-- The kernel's result: that array read as [262144,64]. -/
def result (Q K V : Vec Ideal S262144x64 .f32) : Vec Ideal S262144x64 .f32 :=
  shapeCast S262144x64 (out3 Q K V) Facts₀.shapeCasts_S2048x128x64_S262144x64

end Cert.KSpec

end
-- ==== Proof.Hand.Bridge.lean ====
/-
  At the extended reals, the program's last buffer is the specification's `result` of the three argument arrays:
  a band of K or V read through the first kernel's window is that band of the argument; the state array the second
  kernel finds is the accumulator after the last band; a group of trunks read through the second kernel's windows is
  that group of the reshaped argument; so the output array is the specification's `out3` and the final reshape
  gives `result`.
-/
import proofs.«172317_j52544629900005_2_alg».proof.Proof.Hand.Run
import proofs.«172317_j52544629900005_2_alg».proof.Proof.Hand.Value
import proofs.«172317_j52544629900005_2_alg».proof.Proof.KSpec
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Idealize.ShloMosaic.ValueIdx Idealize.ShloMosaic.StableHlo Cert.KSpec

variable (m : (ℓ : Loc nD τ sig) → Buf (Elt Ideal) ℓ)

/-! ## The arguments as the regions find them -/

theorem W1_arg0 (c : Dev nD) : W1 m c (Proc.devRef .tc main_arg0) = m ((c : Thread nD τ).loc main_arg0) :=
  (W1_of_ne m c main_arg0 (by decide)).trans rfl
theorem W1_arg1 (c : Dev nD) : W1 m c (Proc.devRef .tc main_arg1) = m ((c : Thread nD τ).loc main_arg1) :=
  ((W1_arr m c 0).trans (((dat0 (V0r m) c).arrAt_in 0 rfl _).trans (A_eq0 (V0r m) c 0))).trans rfl
theorem W1_arg2 (c : Dev nD) : W1 m c (Proc.devRef .tc main_arg2) = m ((c : Thread nD τ).loc main_arg2) :=
  ((W1_arr m c 1).trans (((dat0 (V0r m) c).arrAt_in 1 rfl _).trans (A_eq0 (V0r m) c 1))).trans rfl

/-! ## The first kernel's bands -/

theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- K's band `t` read through the first window is that band of the argument. -/
theorem iblk0_K (c : Dev nD) (t : Fin cfg0.N) (ht : t.val < 32) :
    (iblk0 (V0r m) c 0 t : Vec Ideal S8192x64 .f32) = rowBand (m ((c : Thread nD τ).loc main_arg1)) t.val ht := by
  obtain ⟨e0, e1, -, -⟩ := idx0 t
  funext y
  unfold iblk0 rowBand
  rw [View.read_apply]
  show m ((c : Thread nD τ).loc main_arg1) _ = m ((c : Thread nD τ).loc main_arg1) _
  refine congrArg _ (funext fun a => Fin.ext ?_)
  have hy0 : (y 0).val < 8192 := (y 0).isLt
  match a with
  | ⟨0, _⟩ => show win0_0.index t (0 : Fin 2) * 8192 + 1 * (y 0).val = t.val * 8192 + (y 0).val; rw [e0]; omega
  | ⟨1, _⟩ => show win0_0.index t (1 : Fin 2) * 64 + 1 * (y 1).val = (y 1).val; rw [e1]; omega

/-- V's band likewise, through the second window. -/
theorem iblk0_V (c : Dev nD) (t : Fin cfg0.N) (ht : t.val < 32) :
    (iblk0 (V0r m) c 1 t : Vec Ideal S8192x64 .f32) = rowBand (m ((c : Thread nD τ).loc main_arg2)) t.val ht := by
  obtain ⟨-, -, e0, e1⟩ := idx0 t
  funext y
  unfold iblk0 rowBand
  rw [View.read_apply]
  show m ((c : Thread nD τ).loc main_arg2) _ = m ((c : Thread nD τ).loc main_arg2) _
  refine congrArg _ (funext fun a => Fin.ext ?_)
  have hy0 : (y 0).val < 8192 := (y 0).isLt
  match a with
  | ⟨0, _⟩ => show win0_1.index t (0 : Fin 2) * 8192 + 1 * (y 0).val = t.val * 8192 + (y 0).val; rw [e0]; omega
  | ⟨1, _⟩ => show win0_1.index t (1 : Fin 2) * 64 + 1 * (y 1).val = (y 1).val; rw [e1]; omega

/-- The accumulator after band `n` is the specification's. -/
theorem accG_eq (c : Dev nD) : ∀ (n : ℕ) (h : n < cfg0.N) (h' : n < 32),
    accG (V0r m) c n h = accS (m ((c : Thread nD τ).loc main_arg1)) (m ((c : Thread nD τ).loc main_arg2)) n h'
  | 0, h, h' => by
    show k0_pay2 (F := Ideal) (iblk0 (V0r m) c 0 ⟨0, h⟩) (iblk0 (V0r m) c 1 ⟨0, h⟩) (k0_pay1 (F := Ideal)) = k0_pay2 (F := Ideal) (rowBand _ 0 h') (rowBand _ 0 h') (k0_pay1 (F := Ideal))
    rw [iblk0_K m c ⟨0, h⟩ h', iblk0_V m c ⟨0, h⟩ h']
  | n + 1, h, h' => by
    show k0_pay2 (F := Ideal) (iblk0 (V0r m) c 0 ⟨n + 1, h⟩) (iblk0 (V0r m) c 1 ⟨n + 1, h⟩) (accG (V0r m) c n _) = k0_pay2 (F := Ideal) (rowBand _ (n + 1) h') (rowBand _ (n + 1) h') (accS _ _ n _)
    rw [iblk0_K m c ⟨n + 1, h⟩ h', iblk0_V m c ⟨n + 1, h⟩ h', accG_eq c n (Nat.lt_of_succ_lt h) (Nat.lt_of_succ_lt h')]

/-! ## What the second region finds -/

/-- The state array: the three reshapes do not write it, and the first region left the accumulator after the last band. -/
theorem V2_v0 (c : Dev nD) : V2r m c main_v0 = stateS (m ((c : Thread nD τ).loc main_arg1)) (m ((c : Thread nD τ).loc main_arg2)) := by
  have h1 : W2 m c (Proc.devRef .tc main_v0) = W1 m c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
  show W2 m c (Proc.devRef .tc main_v0) = _
  rw [h1, show W1 m c (Proc.devRef .tc main_v0) = (dat0 (V0r m) c).arrAt 2 cfg0.N from W1_arr m c 2, final0_2, accG_eq m c 31 h31 (by decide)]
  rfl

theorem V2_v1 (c : Dev nD) : V2r m c main_v1 = shapeCast S2048x128x64 (m ((c : Thread nD τ).loc main_arg0)) Facts₀.shapeCasts_S262144x64_S2048x128x64 := by
  have e : V2r m c main_v1 = shapeCast S2048x128x64 (W1 m c (Proc.devRef .tc main_arg0)) Facts₀.shapeCasts_S262144x64_S2048x128x64 := by
    show StableHlo.after hostOps1 (W1 m c) (Proc.devRef .tc main_v1) = _
    after_results
    rfl
  rw [e, W1_arg0]
theorem V2_v2 (c : Dev nD) : V2r m c main_v2 = shapeCast S2048x128x64 (m ((c : Thread nD τ).loc main_arg1)) Facts₀.shapeCasts_S262144x64_S2048x128x64 := by
  have e : V2r m c main_v2 = shapeCast S2048x128x64 (W1 m c (Proc.devRef .tc main_arg1)) Facts₀.shapeCasts_S262144x64_S2048x128x64 := by
    show StableHlo.after hostOps1 (W1 m c) (Proc.devRef .tc main_v2) = _
    after_results
    rfl
  rw [e, W1_arg1]
theorem V2_v3 (c : Dev nD) : V2r m c main_v3 = shapeCast S2048x128x64 (m ((c : Thread nD τ).loc main_arg2)) Facts₀.shapeCasts_S262144x64_S2048x128x64 := by
  have e : V2r m c main_v3 = shapeCast S2048x128x64 (W1 m c (Proc.devRef .tc main_arg2)) Facts₀.shapeCasts_S262144x64_S2048x128x64 := by
    show StableHlo.after hostOps1 (W1 m c) (Proc.devRef .tc main_v3) = _
    after_results
    rfl
  rw [e, W1_arg2]

theorem idx1 : ∀ t : Fin cfg1.N, (win1_0.index t (0 : Fin 2) = 0 ∧ win1_0.index t (1 : Fin 2) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0) :=
  (by decide +kernel : ∀ t : Fin grid1.N, (win1_0.index t (0 : Fin 2) = 0 ∧ win1_0.index t (1 : Fin 2) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0))

/-- The state matrix read through the second kernel's first window (one block, the whole array). -/
theorem iblk1_S (c : Dev nD) (t : Fin cfg1.N) :
    (iblk1 (V2r m) c 0 t : Vec Ideal S64x64 .f32) = stateS (m ((c : Thread nD τ).loc main_arg1)) (m ((c : Thread nD τ).loc main_arg2)) := by
  obtain ⟨⟨e0, e1⟩, -, -, -⟩ := idx1 t
  funext y
  unfold iblk1
  rw [View.read_apply]
  show V2r m c main_v0 _ = _
  rw [V2_v0]
  refine congrArg _ (funext fun a => Fin.ext ?_)
  match a with
  | ⟨0, _⟩ => show win1_0.index t (0 : Fin 2) * 64 + 1 * (y 0).val = (y 0).val; rw [e0]; omega
  | ⟨1, _⟩ => show win1_0.index t (1 : Fin 2) * 64 + 1 * (y 1).val = (y 1).val; rw [e1]; omega

/-- Group `t` of the reshaped Q read through window 1. -/
theorem iblk1_Q (c : Dev nD) (t : Fin cfg1.N) (ht : t.val < 64) :
    (iblk1 (V2r m) c 1 t : Vec Ideal S32x128x64 .f32) = trunkGroup (shapeCast S2048x128x64 (m ((c : Thread nD τ).loc main_arg0)) Facts₀.shapeCasts_S262144x64_S2048x128x64) t.val ht := by
  obtain ⟨e0, e1, e2⟩ := (idx1 t).2.1
  funext y
  unfold iblk1 trunkGroup
  rw [View.read_apply]
  show V2r m c main_v1 _ = _
  rw [V2_v1]
  refine congrArg _ (funext fun a => Fin.ext ?_)
  have hy0 : (y 0).val < 32 := (y 0).isLt
  match a with
  | ⟨0, _⟩ => show win1_1.index t (0 : Fin 3) * 32 + 1 * (y 0).val = t.val * 32 + (y 0).val; rw [e0]; omega
  | ⟨1, _⟩ => show win1_1.index t (1 : Fin 3) * 128 + 1 * (y 1).val = (y 1).val; rw [e1]; omega
  | ⟨2, _⟩ => show win1_1.index t (2 : Fin 3) * 64 + 1 * (y 2).val = (y 2).val; rw [e2]; omega

/-- Group `t` of the reshaped K read through window 2. -/
theorem iblk1_K (c : Dev nD) (t : Fin cfg1.N) (ht : t.val < 64) :
    (iblk1 (V2r m) c 2 t : Vec Ideal S32x128x64 .f32) = trunkGroup (shapeCast S2048x128x64 (m ((c : Thread nD τ).loc main_arg1)) Facts₀.shapeCasts_S262144x64_S2048x128x64) t.val ht := by
  obtain ⟨e0, e1, e2⟩ := (idx1 t).2.2.1
  funext y
  unfold iblk1 trunkGroup
  rw [View.read_apply]
  show V2r m c main_v2 _ = _
  rw [V2_v2]
  refine congrArg _ (funext fun a => Fin.ext ?_)
  have hy0 : (y 0).val < 32 := (y 0).isLt
  match a with
  | ⟨0, _⟩ => show win1_2.index t (0 : Fin 3) * 32 + 1 * (y 0).val = t.val * 32 + (y 0).val; rw [e0]; omega
  | ⟨1, _⟩ => show win1_2.index t (1 : Fin 3) * 128 + 1 * (y 1).val = (y 1).val; rw [e1]; omega
  | ⟨2, _⟩ => show win1_2.index t (2 : Fin 3) * 64 + 1 * (y 2).val = (y 2).val; rw [e2]; omega

/-- Group `t` of the reshaped V read through window 3. -/
theorem iblk1_V (c : Dev nD) (t : Fin cfg1.N) (ht : t.val < 64) :
    (iblk1 (V2r m) c 3 t : Vec Ideal S32x128x64 .f32) = trunkGroup (shapeCast S2048x128x64 (m ((c : Thread nD τ).loc main_arg2)) Facts₀.shapeCasts_S262144x64_S2048x128x64) t.val ht := by
  obtain ⟨e0, e1, e2⟩ := (idx1 t).2.2.2
  funext y
  unfold iblk1 trunkGroup
  rw [View.read_apply]
  show V2r m c main_v3 _ = _
  rw [V2_v3]
  refine congrArg _ (funext fun a => Fin.ext ?_)
  have hy0 : (y 0).val < 32 := (y 0).isLt
  match a with
  | ⟨0, _⟩ => show win1_3.index t (0 : Fin 3) * 32 + 1 * (y 0).val = t.val * 32 + (y 0).val; rw [e0]; omega
  | ⟨1, _⟩ => show win1_3.index t (1 : Fin 3) * 128 + 1 * (y 1).val = (y 1).val; rw [e1]; omega
  | ⟨2, _⟩ => show win1_3.index t (2 : Fin 3) * 64 + 1 * (y 2).val = (y 2).val; rw [e2]; omega

/-! ## The result -/

/-- The second region's output array is the specification's. -/
theorem G3_eq (c : Dev nD) : G3 (V2r m) c = out3 (m ((c : Thread nD τ).loc main_arg0)) (m ((c : Thread nD τ).loc main_arg1)) (m ((c : Thread nD τ).loc main_arg2)) := by
  funext i
  have hp : (ptOf i).val < 64 := lt_of_lt_of_eq (ptOf i).isLt N_1
  unfold G3
  rw [blkVal_eq, iblk1_Q m c (ptOf i) hp, iblk1_K m c (ptOf i) hp, iblk1_V m c (ptOf i) hp, iblk1_S m c (ptOf i)]
  rfl

/-- The program's last buffer is the specification's result. -/
theorem W4_v5 (c : Dev nD) : W4 m c (Proc.devRef .tc main_v5) = result (m ((c : Thread nD τ).loc main_arg0)) (m ((c : Thread nD τ).loc main_arg1)) (m ((c : Thread nD τ).loc main_arg2)) := by
  have e : W4 m c (Proc.devRef .tc main_v5) = shapeCast S262144x64 (W3 m c (Proc.devRef .tc main_v4)) Facts₀.shapeCasts_S2048x128x64_S262144x64 := by
    show StableHlo.after hostOps2 (W3 m c) (Proc.devRef .tc main_v5) = _
    after_results
    rfl
  rw [e, show W3 m c (Proc.devRef .tc main_v4) = (dat1 (V2r m) c).arrAt 4 cfg1.N from W3_arr m c 4, final1_4, G3_eq]
  rfl

end Cert.KernelIdeal.Hand

end
-- ==== Proof.StateSum.lean ====
/-
  The state matrix.  The first kernel's accumulator after its last band is the 64×64 matrix
  S[d, e] = Σ_n V[n, d] · K[n, e], the sum over all 262144 rows: each band adds the partial sum over its 8192 rows
  to what the bands before it left, the first band adds to zero, and the 32 consecutive bands of 8192 rows exhaust
  the rows in order.  That sum is the reference's contraction of V and K over their row axis.
-/
import proofs.«172317_j52544629900005_2_alg».proof.Proof.KSpec
import proofs.«172317_j52544629900005_2_alg».proof.Proof.Gen.ReferenceIdeal.Read
import Idealize.ShloMosaic.Lib.Pipeline.Value
import Idealize.ShloMosaic.Lib.ValueIdx
import Idealize.ShloMosaic.PureOps.Ideal.Laws

noncomputable section

namespace Cert.KState

open Idealize.ShloMosaic Idealize.ShloMosaic.ValueIdx Cert.KernelIdeal Cert.KernelIdeal.Gen Cert.KSpec

/-! ## The first body's two stored values at an entry -/

/-- The block stored before the first band is zero everywhere. -/
theorem pay1_apply (j : S64x64.Idx) : k0_pay1 (F := Ideal) j = 0 := by
  unfold k0_pay1
  rw [shapeCast_self]
  exact Ideal.ofBits_zero_f32

/-- The band product's left operand index: row = the contraction coordinate … -/
theorem lhs_0 (i : S64x64.Idx) (q : dot_S8192x64_S8192x64_S64x64_0_0_1_1_n_n.contr.Idx) :
    (dot_S8192x64_S8192x64_S64x64_0_0_1_1_n_n.lhsIdx i q 0).val = (q ⟨0, by decide⟩).val :=
  dot_S8192x64_S8192x64_S64x64_0_0_1_1_n_n.lhsIdx_val_of_single rfl i q
/-- … column = the entry's row. -/
theorem lhs_1 (i : S64x64.Idx) (q : dot_S8192x64_S8192x64_S64x64_0_0_1_1_n_n.contr.Idx) :
    (dot_S8192x64_S8192x64_S64x64_0_0_1_1_n_n.lhsIdx i q 1).val = (i 0).val := by
  unfold DotDims.lhsIdx
  rw [dif_neg (show ¬(1 : Fin S8192x64.rank) ∈ dot_S8192x64_S8192x64_S64x64_0_0_1_1_n_n.lhsBatch by decide), dif_pos (show (1 : Fin S8192x64.rank) ∈ dot_S8192x64_S8192x64_S64x64_0_0_1_1_n_n.lhsNonContracting by decide)]
  rfl
/-- The right operand index: row = the contraction coordinate … -/
theorem rhs_0 (i : S64x64.Idx) (q : dot_S8192x64_S8192x64_S64x64_0_0_1_1_n_n.contr.Idx) :
    (dot_S8192x64_S8192x64_S64x64_0_0_1_1_n_n.rhsIdx i q 0).val = (q ⟨0, by decide⟩).val :=
  dot_S8192x64_S8192x64_S64x64_0_0_1_1_n_n.rhsIdx_val_of_single rfl i q
/-- … column = the entry's column. -/
theorem rhs_1 (i : S64x64.Idx) (q : dot_S8192x64_S8192x64_S64x64_0_0_1_1_n_n.contr.Idx) :
    (dot_S8192x64_S8192x64_S64x64_0_0_1_1_n_n.rhsIdx i q 1).val = (i 1).val := by
  unfold DotDims.rhsIdx
  rw [dif_neg (show ¬(1 : Fin S8192x64.rank) ∈ dot_S8192x64_S8192x64_S64x64_0_0_1_1_n_n.rhsBatch by decide), dif_pos (show (1 : Fin S8192x64.rank) ∈ dot_S8192x64_S8192x64_S64x64_0_0_1_1_n_n.rhsNonContracting by decide)]
  rfl

/-- The product of a band of V (transposed) with the band of K, into the zero block, at entry (d, e):
    Σ_j vb[j, d] · kb[j, e]. -/
theorem bandProduct_apply (kb vb : FVec Ideal S8192x64 .bf16) (d e : Fin 64) :
    FloatOps.matmul dot_S8192x64_S8192x64_S64x64_0_0_1_1_n_n none vb kb (constant (F := Ideal) S64x64 .f32 0x00000000#32) (ix2 d e)
      = ∑ j : Fin 8192, vb (ix2 j d) * kb (ix2 j e) := by
  rw [Ideal.matmul_constant_zero_apply, ← Equiv.sum_comp (contrEquiv1 dot_S8192x64_S8192x64_S64x64_0_0_1_1_n_n 8192 rfl rfl).symm]
  refine Finset.sum_congr rfl fun k _ => ?_
  have hk := contrEquiv1_symm_val dot_S8192x64_S8192x64_S64x64_0_0_1_1_n_n 8192 rfl rfl k
  have el : dot_S8192x64_S8192x64_S64x64_0_0_1_1_n_n.lhsIdx (ix2 d e) ((contrEquiv1 dot_S8192x64_S8192x64_S64x64_0_0_1_1_n_n 8192 rfl rfl).symm k) = ix2 k d := funext fun a => Fin.ext (by
    match a with
    | ⟨0, _⟩ => exact (lhs_0 _ _).trans hk
    | ⟨1, _⟩ => exact lhs_1 _ _)
  have er : dot_S8192x64_S8192x64_S64x64_0_0_1_1_n_n.rhsIdx (ix2 d e) ((contrEquiv1 dot_S8192x64_S8192x64_S64x64_0_0_1_1_n_n 8192 rfl rfl).symm k) = ix2 k e := funext fun a => Fin.ext (by
    match a with
    | ⟨0, _⟩ => exact (rhs_0 _ _).trans hk
    | ⟨1, _⟩ => exact rhs_1 _ _)
  rw [el, er]

/-- The value a band stores at entry (d, e): what the accumulator held there plus Σ_j vb[j, d] · kb[j, e]. -/
theorem pay2_apply (kb vb : Vec Ideal S8192x64 .f32) (acc : Vec Ideal S64x64 .f32) (d e : Fin 64) :
    k0_pay2 (F := Ideal) kb vb acc (ix2 d e) = acc (ix2 d e) + ∑ j : Fin 8192, vb (ix2 j d) * kb (ix2 j e) := by
  unfold k0_pay2
  rw [shapeCast_self]
  exact congrArg (acc (ix2 d e) + ·) (bandProduct_apply _ _ d e)

/-! ## The accumulator after a band, as a partial sum over the rows -/

/-- The term of row n of the sum for entry (d, e): V[n, d] · K[n, e] (zero past the last row). -/
def rowTerm (K V : Vec Ideal S262144x64 .f32) (d e : Fin 64) (n : ℕ) : EReal :=
  if h : n < 262144 then V (ix2 (⟨n, h⟩ : Fin 262144) d) * K (ix2 (⟨n, h⟩ : Fin 262144) e) else 0

/-- Row j of band b is row b·8192 + j of the array. -/
theorem band_term (K V : Vec Ideal S262144x64 .f32) (d e : Fin 64) (b : ℕ) (hb : b < 32) (j : Fin 8192) :
    rowBand V b hb (ix2 j d) * rowBand K b hb (ix2 j e) = rowTerm K V d e (b * 8192 + j.val) := by
  have hj := j.isLt
  unfold rowTerm
  rw [dif_pos (by omega)]
  rfl

/-- A band's partial sum is the sum of the row terms over the band's 8192 consecutive rows. -/
theorem band_sum (K V : Vec Ideal S262144x64 .f32) (d e : Fin 64) (b : ℕ) (hb : b < 32) :
    ∑ j : Fin 8192, rowBand V b hb (ix2 j d) * rowBand K b hb (ix2 j e)
      = ∑ j ∈ Finset.range 8192, rowTerm K V d e (b * 8192 + j) := by
  rw [← Fin.sum_univ_eq_sum_range (fun j => rowTerm K V d e (b * 8192 + j)) 8192]
  exact Finset.sum_congr rfl fun j _ => band_term K V d e b hb j

/-- After band b the accumulator's entry (d, e) is the sum of the row terms over the first (b+1)·8192 rows. -/
theorem accS_apply (K V : Vec Ideal S262144x64 .f32) (d e : Fin 64) : ∀ (b : ℕ) (hb : b < 32),
    accS K V b hb (ix2 d e) = ∑ n ∈ Finset.range ((b + 1) * 8192), rowTerm K V d e n
  | 0, hb => by
    rw [accS, pay2_apply, pay1_apply, zero_add, band_sum]
    refine Finset.sum_congr (by norm_num) fun j _ => ?_
    rw [Nat.zero_mul, Nat.zero_add]
  | b + 1, hb => by
    rw [accS, pay2_apply, accS_apply K V d e b (Nat.lt_of_succ_lt hb), band_sum,
      show (b + 1 + 1) * 8192 = (b + 1) * 8192 + 8192 by ring, Finset.sum_range_add]

/-! ## The state matrix is the reference's contraction -/

/-- The state matrix the first kernel writes back is the reference's product of V (transposed) and K. -/
theorem stateS_eq (K V : Vec Ideal S262144x64 .f32) :
    stateS K V = Cert.ReferenceIdeal.Read.val_main_v6 (F := Ideal) K V := by
  funext i
  obtain ⟨d, e, rfl⟩ : ∃ (d e : Fin 64), i = ix2 d e := ⟨i 0, i 1, eq_ix2 i⟩
  rw [Cert.ReferenceIdeal.Read.val_main_v6_apply, stateS, accS_apply,
    ← Fin.sum_univ_eq_sum_range (rowTerm K V d e) ((31 + 1) * 8192)]
  refine Finset.sum_congr rfl fun k _ => ?_
  have el : Cert.ReferenceIdeal.Read.lidx_main_v6 (ix2 d e) k = ix2 k d :=
    funext fun a => Fin.ext (by match a with | ⟨0, _⟩ => rfl | ⟨1, _⟩ => rfl)
  have er : Cert.ReferenceIdeal.Read.ridx_main_v6 (ix2 d e) k = ix2 k e :=
    funext fun a => Fin.ext (by match a with | ⟨0, _⟩ => rfl | ⟨1, _⟩ => rfl)
  rw [el, er]
  unfold rowTerm
  rw [dif_pos k.isLt]

end Cert.KState

end
-- ==== Proof.OutValue.lean ====
/-
  The second kernel's arithmetic, entry by entry, against the reference's last four stages.

  On a group of 32 trunks the second body computes, trunk by trunk, ((Q_t K_tᵀ) V_t) S: three contractions into zero
  accumulators, each with the trunk as its one batch axis and one contracted axis; the narrowing format changes between
  them are the identity on the extended reals.  Read at trunk g, row r, column e the stored value is
      ∑ d, (∑ m, (∑ d', q (g,r,d') · k (g,m,d')) · v (g,m,d)) · S (d,e).
  The reference's last stage at row n, column e is ∑ d, A (n,d) · S (d,e) with A the [2048,128,64] array
  (Q_t K_tᵀ) V_t read at trunk n / 128, row n % 128: the same nested sum once the trunk (n / 128) is written as
  32 · (its group) + (its place in the group).
-/
import proofs.«172317_j52544629900005_2_alg».proof.Proof.KSpec
import proofs.«172317_j52544629900005_2_alg».proof.Proof.Gen.ReferenceIdeal.Read
import Idealize.ShloMosaic.Lib.ValueLayout
import Idealize.ShloMosaic.Lib.Pipeline.Value
import Idealize.ShloMosaic.PureOps.Ideal.Laws

noncomputable section

namespace Cert.KOut

open Idealize.ShloMosaic Idealize.ShloMosaic.ValueIdx Cert.KernelIdeal Cert.KernelIdeal.Gen

/-! ## The three contractions' dimension numbers -/

/-- Rows of Q against rows of K within a trunk: contracts the last axis of both operands. -/
abbrev dQK : DotDims S32x128x64 S32x128x64 S32x128x128 := dot_S32x128x64_S32x128x64_S32x128x128_2_2_1_1_0_0
/-- The [128,128] scores against V within a trunk: contracts the scores' last axis with V's row axis. -/
abbrev dPV : DotDims S32x128x128 S32x128x64 S32x128x64 := dot_S32x128x128_S32x128x64_S32x128x64_2_1_1_2_0_0
/-- A trunk's [128,64] block against the (repeated) state matrix: contracts the block's last axis with the state's row axis. -/
abbrev dOS : DotDims S32x128x64 S32x64x64 S32x128x64 := dot_S32x128x64_S32x64x64_S32x128x64_2_1_1_2_0_0

/-! ## Q Kᵀ within a trunk -/

theorem lhsQK_0 (i : S32x128x128.Idx) (q : dQK.contr.Idx) : (dQK.lhsIdx i q 0).val = (i 0).val := by
  unfold DotDims.lhsIdx
  rw [dif_pos (show (0 : Fin S32x128x64.rank) ∈ dQK.lhsBatch by decide)]
  rfl
theorem lhsQK_1 (i : S32x128x128.Idx) (q : dQK.contr.Idx) : (dQK.lhsIdx i q 1).val = (i 1).val := by
  unfold DotDims.lhsIdx
  rw [dif_neg (show ¬(1 : Fin S32x128x64.rank) ∈ dQK.lhsBatch by decide), dif_pos (show (1 : Fin S32x128x64.rank) ∈ dQK.lhsNonContracting by decide)]
  rfl
theorem lhsQK_2 (i : S32x128x128.Idx) (q : dQK.contr.Idx) : (dQK.lhsIdx i q 2).val = (q ⟨0, by decide⟩).val :=
  dQK.lhsIdx_val_of_single rfl i q
theorem rhsQK_0 (i : S32x128x128.Idx) (q : dQK.contr.Idx) : (dQK.rhsIdx i q 0).val = (i 0).val := by
  unfold DotDims.rhsIdx
  rw [dif_pos (show (0 : Fin S32x128x64.rank) ∈ dQK.rhsBatch by decide)]
  rfl
theorem rhsQK_1 (i : S32x128x128.Idx) (q : dQK.contr.Idx) : (dQK.rhsIdx i q 1).val = (i 2).val := by
  unfold DotDims.rhsIdx
  rw [dif_neg (show ¬(1 : Fin S32x128x64.rank) ∈ dQK.rhsBatch by decide), dif_pos (show (1 : Fin S32x128x64.rank) ∈ dQK.rhsNonContracting by decide)]
  rfl
theorem rhsQK_2 (i : S32x128x128.Idx) (q : dQK.contr.Idx) : (dQK.rhsIdx i q 2).val = (q ⟨0, by decide⟩).val :=
  dQK.rhsIdx_val_of_single rfl i q

/-- The first contraction into a zero accumulator, at trunk `g`, row `r`, column `m`: the inner product of row `r` of the
    left operand with row `m` of the right one. -/
theorem mmQK_apply (a b : FVec Ideal S32x128x64 .bf16) (g : Fin 32) (r m : Fin 128) :
    matmul dQK none a b (constant (F := Ideal) S32x128x128 .f32 0x00000000#32) (ix3 g r m)
      = ∑ k : Fin 64, a (ix3 g r k) * b (ix3 g m k) := by
  simp only [matmul]
  rw [Ideal.matmul_constant_zero_apply, ← Equiv.sum_comp (contrEquiv1 dQK 64 rfl rfl).symm]
  refine Finset.sum_congr rfl fun k _ => ?_
  have hk := contrEquiv1_symm_val dQK 64 rfl rfl k
  have el : dQK.lhsIdx (ix3 g r m) ((contrEquiv1 dQK 64 rfl rfl).symm k) = ix3 g r k := funext fun x => Fin.ext (by
    match x with
    | ⟨0, _⟩ => exact lhsQK_0 _ _
    | ⟨1, _⟩ => exact lhsQK_1 _ _
    | ⟨2, _⟩ => exact (lhsQK_2 _ _).trans hk)
  have er : dQK.rhsIdx (ix3 g r m) ((contrEquiv1 dQK 64 rfl rfl).symm k) = ix3 g m k := funext fun x => Fin.ext (by
    match x with
    | ⟨0, _⟩ => exact rhsQK_0 _ _
    | ⟨1, _⟩ => exact rhsQK_1 _ _
    | ⟨2, _⟩ => exact (rhsQK_2 _ _).trans hk)
  rw [el, er]

/-! ## (Q Kᵀ) V within a trunk -/

theorem lhsPV_0 (i : S32x128x64.Idx) (q : dPV.contr.Idx) : (dPV.lhsIdx i q 0).val = (i 0).val := by
  unfold DotDims.lhsIdx
  rw [dif_pos (show (0 : Fin S32x128x128.rank) ∈ dPV.lhsBatch by decide)]
  rfl
theorem lhsPV_1 (i : S32x128x64.Idx) (q : dPV.contr.Idx) : (dPV.lhsIdx i q 1).val = (i 1).val := by
  unfold DotDims.lhsIdx
  rw [dif_neg (show ¬(1 : Fin S32x128x128.rank) ∈ dPV.lhsBatch by decide), dif_pos (show (1 : Fin S32x128x128.rank) ∈ dPV.lhsNonContracting by decide)]
  rfl
theorem lhsPV_2 (i : S32x128x64.Idx) (q : dPV.contr.Idx) : (dPV.lhsIdx i q 2).val = (q ⟨0, by decide⟩).val :=
  dPV.lhsIdx_val_of_single rfl i q
theorem rhsPV_0 (i : S32x128x64.Idx) (q : dPV.contr.Idx) : (dPV.rhsIdx i q 0).val = (i 0).val := by
  unfold DotDims.rhsIdx
  rw [dif_pos (show (0 : Fin S32x128x64.rank) ∈ dPV.rhsBatch by decide)]
  rfl
theorem rhsPV_1 (i : S32x128x64.Idx) (q : dPV.contr.Idx) : (dPV.rhsIdx i q 1).val = (q ⟨0, by decide⟩).val :=
  dPV.rhsIdx_val_of_single rfl i q
theorem rhsPV_2 (i : S32x128x64.Idx) (q : dPV.contr.Idx) : (dPV.rhsIdx i q 2).val = (i 2).val := by
  unfold DotDims.rhsIdx
  rw [dif_neg (show ¬(2 : Fin S32x128x64.rank) ∈ dPV.rhsBatch by decide), dif_pos (show (2 : Fin S32x128x64.rank) ∈ dPV.rhsNonContracting by decide)]
  rfl

/-- The second contraction into a zero accumulator, at trunk `g`, row `r`, column `d`: row `r` of the left operand
    against column `d` of the right one. -/
theorem mmPV_apply (a : FVec Ideal S32x128x128 .bf16) (b : FVec Ideal S32x128x64 .bf16) (g : Fin 32) (r : Fin 128) (d : Fin 64) :
    matmul dPV none a b (constant (F := Ideal) S32x128x64 .f32 0x00000000#32) (ix3 g r d)
      = ∑ m : Fin 128, a (ix3 g r m) * b (ix3 g m d) := by
  simp only [matmul]
  rw [Ideal.matmul_constant_zero_apply, ← Equiv.sum_comp (contrEquiv1 dPV 128 rfl rfl).symm]
  refine Finset.sum_congr rfl fun k _ => ?_
  have hk := contrEquiv1_symm_val dPV 128 rfl rfl k
  have el : dPV.lhsIdx (ix3 g r d) ((contrEquiv1 dPV 128 rfl rfl).symm k) = ix3 g r k := funext fun x => Fin.ext (by
    match x with
    | ⟨0, _⟩ => exact lhsPV_0 _ _
    | ⟨1, _⟩ => exact lhsPV_1 _ _
    | ⟨2, _⟩ => exact (lhsPV_2 _ _).trans hk)
  have er : dPV.rhsIdx (ix3 g r d) ((contrEquiv1 dPV 128 rfl rfl).symm k) = ix3 g k d := funext fun x => Fin.ext (by
    match x with
    | ⟨0, _⟩ => exact rhsPV_0 _ _
    | ⟨1, _⟩ => exact (rhsPV_1 _ _).trans hk
    | ⟨2, _⟩ => exact rhsPV_2 _ _)
  rw [el, er]

/-! ## ((Q Kᵀ) V) S within a trunk -/

theorem lhsOS_0 (i : S32x128x64.Idx) (q : dOS.contr.Idx) : (dOS.lhsIdx i q 0).val = (i 0).val := by
  unfold DotDims.lhsIdx
  rw [dif_pos (show (0 : Fin S32x128x64.rank) ∈ dOS.lhsBatch by decide)]
  rfl
theorem lhsOS_1 (i : S32x128x64.Idx) (q : dOS.contr.Idx) : (dOS.lhsIdx i q 1).val = (i 1).val := by
  unfold DotDims.lhsIdx
  rw [dif_neg (show ¬(1 : Fin S32x128x64.rank) ∈ dOS.lhsBatch by decide), dif_pos (show (1 : Fin S32x128x64.rank) ∈ dOS.lhsNonContracting by decide)]
  rfl
theorem lhsOS_2 (i : S32x128x64.Idx) (q : dOS.contr.Idx) : (dOS.lhsIdx i q 2).val = (q ⟨0, by decide⟩).val :=
  dOS.lhsIdx_val_of_single rfl i q
theorem rhsOS_0 (i : S32x128x64.Idx) (q : dOS.contr.Idx) : (dOS.rhsIdx i q 0).val = (i 0).val := by
  unfold DotDims.rhsIdx
  rw [dif_pos (show (0 : Fin S32x64x64.rank) ∈ dOS.rhsBatch by decide)]
  rfl
theorem rhsOS_1 (i : S32x128x64.Idx) (q : dOS.contr.Idx) : (dOS.rhsIdx i q 1).val = (q ⟨0, by decide⟩).val :=
  dOS.rhsIdx_val_of_single rfl i q
theorem rhsOS_2 (i : S32x128x64.Idx) (q : dOS.contr.Idx) : (dOS.rhsIdx i q 2).val = (i 2).val := by
  unfold DotDims.rhsIdx
  rw [dif_neg (show ¬(2 : Fin S32x64x64.rank) ∈ dOS.rhsBatch by decide), dif_pos (show (2 : Fin S32x64x64.rank) ∈ dOS.rhsNonContracting by decide)]
  rfl

/-- The third contraction into a zero accumulator, at trunk `g`, row `r`, column `e`: row `r` of the left operand against
    column `e` of the right operand's matrix `g`. -/
theorem mmOS_apply (a : FVec Ideal S32x128x64 .bf16) (b : FVec Ideal S32x64x64 .bf16) (g : Fin 32) (r : Fin 128) (e : Fin 64) :
    matmul dOS none a b (constant (F := Ideal) S32x128x64 .f32 0x00000000#32) (ix3 g r e)
      = ∑ d : Fin 64, a (ix3 g r d) * b (ix3 g d e) := by
  simp only [matmul]
  rw [Ideal.matmul_constant_zero_apply, ← Equiv.sum_comp (contrEquiv1 dOS 64 rfl rfl).symm]
  refine Finset.sum_congr rfl fun k _ => ?_
  have hk := contrEquiv1_symm_val dOS 64 rfl rfl k
  have el : dOS.lhsIdx (ix3 g r e) ((contrEquiv1 dOS 64 rfl rfl).symm k) = ix3 g r k := funext fun x => Fin.ext (by
    match x with
    | ⟨0, _⟩ => exact lhsOS_0 _ _
    | ⟨1, _⟩ => exact lhsOS_1 _ _
    | ⟨2, _⟩ => exact (lhsOS_2 _ _).trans hk)
  have er : dOS.rhsIdx (ix3 g r e) ((contrEquiv1 dOS 64 rfl rfl).symm k) = ix3 g k e := funext fun x => Fin.ext (by
    match x with
    | ⟨0, _⟩ => exact rhsOS_0 _ _
    | ⟨1, _⟩ => exact (rhsOS_1 _ _).trans hk
    | ⟨2, _⟩ => exact rhsOS_2 _ _)
  rw [el, er]

/-! ## The state matrix repeated over the group's trunks -/

/-- The [64,64] state matrix, viewed [1,64,64] and repeated to [32,64,64], reads at every trunk `g` the matrix itself. -/
theorem stateRep_apply (s : Vec Ideal S64x64 .f32) (g : Fin 32) (d e : Fin 64) :
    broadcastTo S32x64x64
        (shapeCast S1x64x64
          (shapeCast S1x64x64 (truncf (F := Ideal) .bf16 (shapeCast S64x64 s shapeCasts_S64x64_S64x64) bitsLt_bf16_f32)
            shapeCasts_S64x64_S1x64x64)
          shapeCasts_S1x64x64_S1x64x64)
        broadcasts_S1x64x64_S32x64x64 (ix3 g d e)
      = s (ix2 d e) := by
  refine (broadcastTo_apply _ broadcasts_S1x64x64_S32x64x64 (ix3 g d e) (ix3 (0 : Fin 1) d e) fun x => ?_).trans ?_
  · match x with
    | ⟨0, _⟩ => rfl
    | ⟨1, _⟩ => rfl
    | ⟨2, _⟩ => rfl
  · rw [shapeCast_self, shapeCast_ab_1ab_apply, truncf_apply, shapeCast_self]

/-! ## The second body's stored value at an index -/

/-- The second body's stored value on a group's blocks `q3`, `k3`, `v3` and the state matrix `s`, at trunk `g` of the group,
    row `r`, column `e`: ((q kᵀ) v) s, the three contractions nested. -/
theorem k1_pay1_apply (q3 k3 v3 : Vec Ideal S32x128x64 .f32) (s : Vec Ideal S64x64 .f32) (g : Fin 32) (r : Fin 128) (e : Fin 64) :
    k1_pay1 (F := Ideal) q3 k3 v3 s (ix3 g r e)
      = ∑ d : Fin 64, (∑ m : Fin 128, (∑ d' : Fin 64, q3 (ix3 g r d') * k3 (ix3 g m d')) * v3 (ix3 g m d)) * s (ix2 d e) := by
  unfold k1_pay1
  refine (mmOS_apply _ _ g r e).trans ?_
  refine Finset.sum_congr rfl fun d _ => ?_
  rw [stateRep_apply s g d e, truncf_apply]
  refine congrArg (· * s (ix2 d e)) ?_
  refine (mmPV_apply _ _ g r d).trans ?_
  refine Finset.sum_congr rfl fun m _ => ?_
  rw [truncf_apply, truncf_apply, shapeCast_self v3]
  refine congrArg (· * v3 (ix3 g m d)) ?_
  refine (mmQK_apply _ _ g r m).trans ?_
  refine Finset.sum_congr rfl fun d' _ => ?_
  rw [truncf_apply, truncf_apply, shapeCast_self, shapeCast_self]

/-! ## The kernel's result at a row and a column -/

/-- Trunk `t`, read at its place `t % 32` in its group `t / 32`, is trunk `t` of the array. -/
theorem trunkGroup_apply (X : Vec Ideal S2048x128x64 .f32) (t : Fin 2048) (hg : t.val / 32 < 64) (r : Fin 128) (c : Fin 64) :
    KSpec.trunkGroup X (t.val / 32) hg (ix3 (⟨t.val % 32, Nat.mod_lt _ (by decide)⟩ : Fin 32) r c) = X (ix3 t r c) := by
  unfold KSpec.trunkGroup
  refine congrArg X (funext fun a => ?_)
  match a with
  | ⟨0, _⟩ => exact Fin.ext (by show t.val / 32 * 32 + t.val % 32 = t.val; omega)
  | ⟨1, _⟩ => rfl
  | ⟨2, _⟩ => rfl

/-- The [2048,128,64] array the second kernel writes, at trunk `t`, row `r`, column `e`: the nested sum over the trunk's
    own rows of the three reshaped arguments, against the state matrix. -/
theorem out3_apply (Q K V : Vec Ideal S262144x64 .f32) (t : Fin 2048) (r : Fin 128) (e : Fin 64) :
    KSpec.out3 Q K V (ix3 t r e)
      = ∑ d : Fin 64, (∑ m : Fin 128, (∑ d' : Fin 64,
            shapeCast S2048x128x64 Q Facts₀.shapeCasts_S262144x64_S2048x128x64 (ix3 t r d')
              * shapeCast S2048x128x64 K Facts₀.shapeCasts_S262144x64_S2048x128x64 (ix3 t m d'))
            * shapeCast S2048x128x64 V Facts₀.shapeCasts_S262144x64_S2048x128x64 (ix3 t m d))
          * KSpec.stateS K V (ix2 d e) := by
  unfold KSpec.out3
  generalize KSpec.stateS K V = s
  generalize shapeCast S2048x128x64 Q Facts₀.shapeCasts_S262144x64_S2048x128x64 = Q3
  generalize shapeCast S2048x128x64 K Facts₀.shapeCasts_S262144x64_S2048x128x64 = K3
  generalize shapeCast S2048x128x64 V Facts₀.shapeCasts_S262144x64_S2048x128x64 = V3
  have hg : t.val / 32 < 64 := by have := t.isLt; omega
  show k1_pay1 (F := Ideal) (KSpec.trunkGroup Q3 (t.val / 32) hg) (KSpec.trunkGroup K3 (t.val / 32) hg)
      (KSpec.trunkGroup V3 (t.val / 32) hg) s (ix3 (⟨t.val % 32, Nat.mod_lt _ (by decide)⟩ : Fin 32) r e) = _
  refine (k1_pay1_apply _ _ _ s _ r e).trans ?_
  refine Finset.sum_congr rfl fun d _ => ?_
  refine congrArg (· * s (ix2 d e)) ?_
  refine Finset.sum_congr rfl fun m _ => ?_
  rw [trunkGroup_apply V3 t hg m d]
  refine congrArg (· * V3 (ix3 t m d)) ?_
  refine Finset.sum_congr rfl fun d' _ => ?_
  rw [trunkGroup_apply Q3 t hg r d', trunkGroup_apply K3 t hg m d']

/-- The kernel's result at row `n`, column `e` is that array at trunk `n / 128`, row `n % 128`, column `e`. -/
theorem result_apply (Q K V : Vec Ideal S262144x64 .f32) (n : Fin 262144) (e : Fin 64) :
    KSpec.result Q K V (ix2 n e)
      = KSpec.out3 Q K V (ix3 (⟨n.val / 128, by have := n.isLt; omega⟩ : Fin 2048)
          (⟨n.val % 128, Nat.mod_lt _ (by decide)⟩ : Fin 128) e) := by
  unfold KSpec.result
  generalize KSpec.out3 Q K V = y
  exact shapeCast_apply y Facts₀.shapeCasts_S2048x128x64_S262144x64 (ix2 n e) _ (by
    rw [Shape.rowMajor_val_three, Shape.rowMajor_val_two]
    show (n.val / 128 * 128 + n.val % 128) * 64 + e.val = n.val * 64 + e.val
    omega)

/-! ## The reference's last four stages at coordinates -/

/-- Q_t K_tᵀ at trunk `t`, row `r`, column `m`. -/
theorem ref_v3_apply (Q K : Vec Ideal S262144x64 .f32) (t : Fin 2048) (r m : Fin 128) :
    Cert.ReferenceIdeal.Read.val_main_v3 (F := Ideal) Q K (ix3 t r m)
      = ∑ d' : Fin 64, Cert.ReferenceIdeal.Read.val_main_v0 (F := Ideal) Q (ix3 t r d')
          * Cert.ReferenceIdeal.Read.val_main_v1 (F := Ideal) K (ix3 t m d') := by
  refine (Cert.ReferenceIdeal.Read.val_main_v3_apply Q K (ix3 t r m)).trans ?_
  refine Finset.sum_congr rfl fun d' _ => ?_
  have el : Cert.ReferenceIdeal.Read.lidx_main_v3 (ix3 t r m) d' = ix3 t r d' := funext fun a => by
    match a with
    | ⟨0, _⟩ => rfl
    | ⟨1, _⟩ => rfl
    | ⟨2, _⟩ => rfl
  have er : Cert.ReferenceIdeal.Read.ridx_main_v3 (ix3 t r m) d' = ix3 t m d' := funext fun a => by
    match a with
    | ⟨0, _⟩ => rfl
    | ⟨1, _⟩ => rfl
    | ⟨2, _⟩ => rfl
  rw [el, er]

/-- (Q_t K_tᵀ) V_t at trunk `t`, row `r`, column `d`. -/
theorem ref_v4_apply (Q K V : Vec Ideal S262144x64 .f32) (t : Fin 2048) (r : Fin 128) (d : Fin 64) :
    Cert.ReferenceIdeal.Read.val_main_v4 (F := Ideal) Q K V (ix3 t r d)
      = ∑ m : Fin 128, Cert.ReferenceIdeal.Read.val_main_v3 (F := Ideal) Q K (ix3 t r m)
          * Cert.ReferenceIdeal.Read.val_main_v2 (F := Ideal) V (ix3 t m d) := by
  refine (Cert.ReferenceIdeal.Read.val_main_v4_apply Q K V (ix3 t r d)).trans ?_
  refine Finset.sum_congr rfl fun m _ => ?_
  have el : Cert.ReferenceIdeal.Read.lidx_main_v4 (ix3 t r d) m = ix3 t r m := funext fun a => by
    match a with
    | ⟨0, _⟩ => rfl
    | ⟨1, _⟩ => rfl
    | ⟨2, _⟩ => rfl
  have er : Cert.ReferenceIdeal.Read.ridx_main_v4 (ix3 t r d) m = ix3 t m d := funext fun a => by
    match a with
    | ⟨0, _⟩ => rfl
    | ⟨1, _⟩ => rfl
    | ⟨2, _⟩ => rfl
  rw [el, er]

/-- That array read as [262144,64]: row `n` is row `n % 128` of trunk `n / 128`. -/
theorem ref_v5_apply (Q K V : Vec Ideal S262144x64 .f32) (n : Fin 262144) (d : Fin 64) :
    Cert.ReferenceIdeal.Read.val_main_v5 (F := Ideal) Q K V (ix2 n d)
      = Cert.ReferenceIdeal.Read.val_main_v4 (F := Ideal) Q K V
          (ix3 (⟨n.val / 128, by have := n.isLt; omega⟩ : Fin 2048) (⟨n.val % 128, Nat.mod_lt _ (by decide)⟩ : Fin 128) d) := by
  refine (Cert.ReferenceIdeal.Read.val_main_v5_apply Q K V (ix2 n d)).trans ?_
  refine congrArg (Cert.ReferenceIdeal.Read.val_main_v4 (F := Ideal) Q K V) (funext fun a => ?_)
  have hn : n.val < 262144 := n.isLt
  have hd : d.val < 64 := d.isLt
  match a with
  | ⟨0, _⟩ => exact Fin.ext (by show (n.val * 64 + d.val) / 8192 = n.val / 128; omega)
  | ⟨1, _⟩ => exact Fin.ext (by show (n.val * 64 + d.val) / 64 % 128 = n.val % 128; omega)
  | ⟨2, _⟩ => exact Fin.ext (by show (n.val * 64 + d.val) % 64 = d.val; omega)

/-- The last stage at row `n`, column `e`: row `n` of that array against column `e` of Vᵀ K. -/
theorem ref_v7_apply (Q K V : Vec Ideal S262144x64 .f32) (n : Fin 262144) (e : Fin 64) :
    Cert.ReferenceIdeal.Read.val_main_v7 (F := Ideal) Q K V (ix2 n e)
      = ∑ d : Fin 64, Cert.ReferenceIdeal.Read.val_main_v5 (F := Ideal) Q K V (ix2 n d)
          * Cert.ReferenceIdeal.Read.val_main_v6 (F := Ideal) K V (ix2 d e) := by
  refine (Cert.ReferenceIdeal.Read.val_main_v7_apply Q K V (ix2 n e)).trans ?_
  refine Finset.sum_congr rfl fun d _ => ?_
  have el : Cert.ReferenceIdeal.Read.lidx_main_v7 (ix2 n e) d = ix2 n d := funext fun a => by
    match a with
    | ⟨0, _⟩ => rfl
    | ⟨1, _⟩ => rfl
  have er : Cert.ReferenceIdeal.Read.ridx_main_v7 (ix2 n e) d = ix2 d e := funext fun a => by
    match a with
    | ⟨0, _⟩ => rfl
    | ⟨1, _⟩ => rfl
  rw [el, er]

/-! ## The kernel's result is the reference's last stage -/

/-- Given that the first kernel's state matrix is the reference's Vᵀ K, the kernel's result is the reference's result:
    at row `n`, column `e` both are ∑ d, (∑ m, (∑ d', Q (t,r,d') · K (t,m,d')) · V (t,m,d)) · S (d,e) with t = n / 128 and
    r = n % 128. -/
theorem result_eq_ref (Q K V : Vec Ideal Cert.KernelIdeal.S262144x64 .f32)
    (hS : Cert.KSpec.stateS K V = Cert.ReferenceIdeal.Read.val_main_v6 (F := Ideal) K V) :
    Cert.KSpec.result Q K V = Cert.ReferenceIdeal.Read.val_main_v7 (F := Ideal) Q K V := by
  funext i
  obtain ⟨n, e, rfl⟩ : ∃ (n : Fin 262144) (e : Fin 64), i = ix2 n e := ⟨i 0, i 1, eq_ix2 i⟩
  refine (result_apply Q K V n e).trans ?_
  refine (out3_apply Q K V _ _ e).trans ?_
  refine ((ref_v7_apply Q K V n e).trans ?_).symm
  refine Finset.sum_congr rfl fun d _ => ?_
  rw [hS]
  refine congrArg (· * Cert.ReferenceIdeal.Read.val_main_v6 (F := Ideal) K V (ix2 d e)) ?_
  refine (ref_v5_apply Q K V n d).trans ?_
  refine (ref_v4_apply Q K V _ _ d).trans ?_
  refine Finset.sum_congr rfl fun m _ => ?_
  refine congrArg₂ (· * ·) ?_ rfl
  exact ref_v3_apply Q K _ _ m

end Cert.KOut

end
-- ==== Proof.lean ====
/-
  Chunked linear attention, out = ((Q_t K_tᵀ) V_t) (Vᵀ K) trunk by trunk, computed by two kernels — a state matrix
  S = Vᵀ K accumulated over 32 bands of 8192 rows, then per group of 32 trunks the three products — against the
  plain einsum form.  Over the extended reals the two are one function of (Q, K, V): the kernel's S is the band sums
  added in order from zero, the reference's is one sum over all 262144 rows, and sums over the extended reals may be
  regrouped; the three products are the same sums of the same entries, the kernel taking them in the [2048,128,64]
  layout and the reference applying the last one after reshaping to [262144,64].  No finiteness is used.

  The frames: every weakly fair execution of the kernel program (at the word level and at the extended reals alike)
  runs the first kernel's region, three reshapes, the second kernel's region and a last reshape to the end, leaving
  every unscoped buffer at a fold from the launch memory in which no step writes an argument.
-/
import proofs.«172317_j52544629900005_2_alg».proof.Defs
import proofs.«172317_j52544629900005_2_alg».proof.Proof.Gen.Kernel
import proofs.«172317_j52544629900005_2_alg».proof.Proof.Gen.KernelIdeal
import proofs.«172317_j52544629900005_2_alg».proof.Proof.Gen.ReferenceIdeal
import proofs.«172317_j52544629900005_2_alg».proof.Proof.Gen.ReferenceIdeal.Read
import proofs.«172317_j52544629900005_2_alg».proof.Proof.Gen.Pre_finite_inputs
import proofs.«172317_j52544629900005_2_alg».proof.Proof.HandK.Run
import proofs.«172317_j52544629900005_2_alg».proof.Proof.Hand.Bridge
import proofs.«172317_j52544629900005_2_alg».proof.Proof.StateSum
import proofs.«172317_j52544629900005_2_alg».proof.Proof.OutValue

noncomputable section

namespace Cert.Proof

open Idealize.ShloMosaic Idealize.ShloMosaic.TcCoe Idealize.SL.Sem

/-- The word-level program runs to the end with its arguments unchanged. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W4_main_arg0 m c),
     (h c _ (Cert.Kernel.Hand.mem_uc Cert.Kernel.main_arg1 (by decide))).trans (Cert.Kernel.Hand.W4_main_arg1 m c),
     (h c _ (Cert.Kernel.Hand.mem_uc Cert.Kernel.main_arg2 (by decide))).trans (Cert.Kernel.Hand.W4_main_arg2 m c)⟩)
    (Cert.Kernel.Hand.run_all (F := Bits) m ρ)

/-- So does the program read at the extended reals. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W4_main_arg0 m c),
     (h c _ (Cert.KernelIdeal.Hand.mem_uc Cert.KernelIdeal.main_arg1 (by decide))).trans (Cert.KernelIdeal.Hand.W4_main_arg1 m c),
     (h c _ (Cert.KernelIdeal.Hand.mem_uc Cert.KernelIdeal.main_arg2 (by decide))).trans (Cert.KernelIdeal.Hand.W4_main_arg2 m c)⟩)
    (Cert.KernelIdeal.Hand.run_all (F := Ideal) m ρ)

/-- The reference is eight host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the same [262144,64] array: the kernel program's last buffer is the specification's
    `result` of its arguments, the reference's is its last stage of arguments that agree, and the two are one function. -/
theorem algebraic : Cert.algebraic_KernelIdeal_ReferenceIdeal := by
  intro m ρ m' ρ' _ hagree
  refine ⟨fun c => Cert.KSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Hand.mem_uc Cert.KernelIdeal.main_v5 (by decide))).trans (Cert.KernelIdeal.Hand.W4_v5 m c),
       (h c _ (Cert.KernelIdeal.Hand.mem_uc Cert.KernelIdeal.main_arg0 (by decide))).trans (Cert.KernelIdeal.Hand.W4_main_arg0 m c),
       (h c _ (Cert.KernelIdeal.Hand.mem_uc Cert.KernelIdeal.main_arg1 (by decide))).trans (Cert.KernelIdeal.Hand.W4_main_arg1 m c),
       (h c _ (Cert.KernelIdeal.Hand.mem_uc Cert.KernelIdeal.main_arg2 (by decide))).trans (Cert.KernelIdeal.Hand.W4_main_arg2 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v7_eq]
    exact (Cert.KOut.result_eq_ref _ _ _ (Cert.KState.stateS_eq _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
